-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part5 {F : FTy → Type} [FloatOps F] (main_arg20 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg16 : FVec F S128 .f32) (main_arg17 : FVec F S128 .f32) (main_arg18 : FVec F S128 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_v48 : IVec S_ 1) (main_v49 : FVec F S128x40 .f32) (main_v50 : FVec F S128x40 .f32) : IVec S_ 1 :=
  let main_v51 : IVec S128x40 1 := cmpf .olt main_v49 main_v50
  let main_c_19 : IVec S_ 1 := constantI S_ 1 1#1
  let main_v52 : IVec S_ 1 := (fun x v => Host.reduce IntOp.andi x v reducesTo_S128x40_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_v63 main_v67

def fn_part2 {F : FTy → Type} [FloatOps F] (main_arg9 : FVec F S128x128 .f32) (main_arg10 : FVec F S128x40 .f32) (main_arg11 : FVec F S40 .f32) (main_arg12 : FVec F S128x40 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x40 .f32 := Host.absf main_arg10
  let main_cst_14 : FVec F S_ .f32 := constant S_ .f32 0x7F800000#32
  let main_v40 : FVec F S128x40 .f32 := broadcastInDim S128x40 ![] bcast_S_S128x40 main_cst_14
  let main_v41 : IVec S128x40 1 := cmpf .olt main_v39 main_v40
  let main_c_15 : IVec S_ 1 := constantI S_ 1 1#1
  let main_v42 : IVec S_ 1 := (fun x v => Host.reduce IntOp.andi x v reducesTo_S128x40_S_d0_1 h_S_) main_v41 main_c_15
  let main_v43 : IVec S_ 1 := andi main_v38 main_v42
  let main_v44 : FVec F S40 .f32 := Host.absf main_arg11
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  let main_v49 : FVec F S128x40 .f32 := Host.absf main_arg12
  let main_cst_18 : FVec F S_ .f32 := constant S_ .f32 0x7F800000#32
  let main_v50 : FVec F S128x40 .f32 := broadcastInDim S128x40 ![] bcast_S_S128x40 main_cst_18
  fn_part3 (F := F) main_arg13 main_arg14 main_arg15 main_arg16 main_arg17 main_arg18 main_arg19 main_arg20 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128x40 .f32) (main_arg11 : FVec F S40 .f32) (main_arg12 : FVec F S128x40 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S50000x128 .f32) (main_arg1 : IVec S2x800000 32) (main_arg2 : IVec S800000 32) (main_arg3 : FVec F S800000 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x40 .f32) (main_arg11 : FVec F S40 .f32) (main_arg12 : FVec F S128x40 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S2000x128 : Shape := ⟨2, ![2000, 128]⟩
abbrev S1x40 : Shape := ⟨2, ![1, 40]⟩
abbrev S50000x40 : Shape := ⟨2, ![50000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 105
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x40, .f32⟩
  | .hbm, ⟨11, _⟩ => ⟨S40, .f32⟩
  | .hbm, ⟨12, _⟩ => ⟨S128x40, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S800000x1, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S800000x1, .f32⟩
  | .hbm, ⟨69, _⟩ => ⟨S800000x128, .f32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S50000x1, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S50000x128, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S800000x1, .f32⟩
  | .hbm, ⟨94, _⟩ => ⟨S800000x128, .f32⟩
  | .hbm, ⟨95, _⟩ => ⟨S800000x128, .f32⟩
  | .hbm, ⟨96, _⟩ => ⟨S_, .f32⟩
  | .hbm, ⟨97, _⟩ => ⟨S50000x128, .f32⟩
  | .hbm, ⟨98, _⟩ => ⟨S800000x1, .i32⟩
  | .hbm, ⟨99, _⟩ => ⟨S50000x128, .f32⟩
  | .hbm, ⟨100, _⟩ => ⟨S50000x1, .f32⟩
  | .hbm, ⟨101, _⟩ => ⟨S50000x128, .f32⟩
  | .hbm, ⟨102, _⟩ => ⟨S50000x128, .f32⟩
  | .hbm, ⟨103, _⟩ => ⟨S1x40, .f32⟩
  | .hbm, ⟨104, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x40, .f32⟩
  | .local _ .vmem, ⟨31, _⟩ => ⟨S1x40, .f32⟩
  | .local _ .vmem, ⟨32, _⟩ => ⟨S128x40, .f32⟩
  | .local _ .vmem, ⟨33, _⟩ => ⟨S2000x40, .f32⟩
  | .local _ .vmem, ⟨34, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_c : Ref sig .tc := ⟨.hbm, 34, rfl⟩
abbrev main_v10 : Ref sig .tc := ⟨.hbm, 35, rfl⟩
abbrev main_v11 : Ref sig .tc := ⟨.hbm, 36, rfl⟩
abbrev main_c_2 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_4 : Ref sig .tc := ⟨.hbm, 59, rfl⟩
abbrev main_v32 : Ref sig .tc := ⟨.hbm, 60, rfl⟩
abbrev main_v33 : Ref sig .tc := ⟨.hbm, 61, rfl⟩
abbrev main_c_5 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_6 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_7 : Ref sig .tc := ⟨.hbm, 84, rfl⟩
abbrev main_v54 : Ref sig .tc := ⟨.hbm, 85, rfl⟩
abbrev main_v55 : Ref sig .tc := ⟨.hbm, 86, rfl⟩
abbrev main_c_8 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_9 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x40.size a ≤ S128x40.size a
  hwx2_4 : ∀ i : grid2.Coords, EltTy.bits .f32 = 32 ∨ (Rect.block (s := S128x40) S128x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x40.size a ≤ S50000x40.size a
  hwx2_5 : ∀ i : grid2.Coords, EltTy.bits .f32 = 32 ∨ (Rect.block (s := S50000x40) S2000x40.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v25) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v52) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v53) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v69) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S2000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 178
  | .vmem => 0
  | .smem => 0
  | _ => 0

abbrev hbmTy0_0 (i : Nat) : BufTy := match i % 128 with
  | 0 => ⟨S50000x128, .f32⟩
  | 1 => ⟨S2x800000, .i32⟩
  | 2 => ⟨S800000, .i32⟩
  | 3 => ⟨S800000, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x40, .f32⟩
  | 11 => ⟨S40, .f32⟩
  | 12 => ⟨S128x40, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S1x800000, .i32⟩
  | 22 => ⟨S800000, .i32⟩
  | 23 => ⟨S1x800000, .i32⟩
  | 24 => ⟨S800000, .i32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S800000x1, .f32⟩
  | 35 => ⟨S800000x128, .f32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S_, .f32⟩
  | 42 => ⟨S800000, .f32⟩
  | 43 => ⟨S_, .f32⟩
  | 44 => ⟨S50000, .f32⟩
  | 45 => ⟨S800000x1, .i32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S_, .f32⟩
  | 63 => ⟨S128, .f32⟩
  | 64 => ⟨S128, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S800000x1, .f32⟩
  | 86 => ⟨S800000x128, .f32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S_, .f32⟩
  | 93 => ⟨S800000, .f32⟩
  | 94 => ⟨S_, .f32⟩
  | 95 => ⟨S50000, .f32⟩
  | 96 => ⟨S800000x1, .i32⟩
  | 97 => ⟨S50000, .f32⟩
  | 98 => ⟨S_, .f32⟩
  | 99 => ⟨S50000, .f32⟩
  | 100 => ⟨S50000, .f32⟩
  | 101 => ⟨S50000x1, .f32⟩
  | 102 => ⟨S50000x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S128, .f32⟩
  | 115 => ⟨S128, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S800000, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S800000x1, .f32⟩
  | 11 => ⟨S800000x128, .f32⟩
  | 12 => ⟨S800000x128, .f32⟩
  | 13 => ⟨S_, .f32⟩
  | 14 => ⟨S50000x128, .f32⟩
  | 15 => ⟨S800000x1, .i32⟩
  | 16 => ⟨S50000x128, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000x1, .f32⟩
  | 27 => ⟨S50000x128, .f32⟩
  | 28 => ⟨S50000x128, .f32⟩
  | 29 => ⟨S50000x40, .f32⟩
  | 30 => ⟨S1x40, .f32⟩
  | 31 => ⟨S50000x40, .f32⟩
  | 32 => ⟨S50000x40, .f32⟩
  | 33 => ⟨S50000x40, .f32⟩
  | 34 => ⟨S50000x40, .f32⟩
  | 35 => ⟨S_, .f32⟩
  | 36 => ⟨S50000, .f32⟩
  | 37 => ⟨S_, .f32⟩
  | 38 => ⟨S50000, .f32⟩
  | 39 => ⟨S50000, .f32⟩
  | 40 => ⟨S50000x1, .f32⟩
  | 41 => ⟨S50000x40, .f32⟩
  | 42 => ⟨S50000x40, .f32⟩
  | 43 => ⟨S50000x40, .f32⟩
  | 44 => ⟨S_, .f32⟩
  | 45 => ⟨S50000, .f32⟩
  | 46 => ⟨S50000x1, .f32⟩
  | 47 => ⟨S50000x1, .f32⟩
  | 48 => ⟨S50000x40, .f32⟩
  | 49 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_cst_2 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_3 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_call0_cst : Ref sig .tc := ⟨.hbm, 73, rfl⟩
abbrev main_call0_v0 : Ref sig .tc := ⟨.hbm, 74, rfl⟩
abbrev main_v45 : Ref sig .tc := ⟨.hbm, 75, rfl⟩
abbrev main_c_5 : Ref sig .tc := ⟨.hbm, 76, rfl⟩
abbrev main_v46 : Ref sig .tc := ⟨.hbm, 77, rfl⟩
abbrev main_v47 : Ref sig .tc := ⟨.hbm, 78, rfl⟩
abbrev main_c_6 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_7 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_8 : Ref sig .tc := ⟨.hbm, 92, rfl⟩
abbrev main_v59 : Ref sig .tc := ⟨.hbm, 93, rfl⟩
abbrev main_cst_9 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_10 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_11 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_call1_cst : Ref sig .tc := ⟨.hbm, 124, rfl⟩
abbrev main_call1_v0 : Ref sig .tc := ⟨.hbm, 125, rfl⟩
abbrev main_v87 : Ref sig .tc := ⟨.hbm, 126, rfl⟩
abbrev main_cst_12 : Ref sig .tc := ⟨.hbm, 127, rfl⟩
abbrev main_v88 : Ref sig .tc := ⟨.hbm, 128, rfl⟩
abbrev main_c_13 : Ref sig .tc := ⟨.hbm, 129, rfl⟩
abbrev main_v89 : Ref sig .tc := ⟨.hbm, 130, rfl⟩
abbrev main_v90 : Ref sig .tc := ⟨.hbm, 131, rfl⟩
abbrev main_c_14 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_15 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_16 : Ref sig .tc := ⟨.hbm, 145, rfl⟩
abbrev main_v102 : Ref sig .tc := ⟨.hbm, 146, rfl⟩
abbrev main_cst_17 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_18 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_call2_cst : Ref sig .tc := ⟨.hbm, 163, rfl⟩
abbrev main_call2_v0 : Ref sig .tc := ⟨.hbm, 164, rfl⟩
abbrev main_call2_cst_0 : Ref sig .tc := ⟨.hbm, 165, rfl⟩
abbrev main_call2_v1 : Ref sig .tc := ⟨.hbm, 166, rfl⟩
abbrev main_call2_v2 : Ref sig .tc := ⟨.hbm, 167, rfl⟩
abbrev main_call2_v3 : Ref sig .tc := ⟨.hbm, 168, rfl⟩
abbrev main_call2_v4 : Ref sig .tc := ⟨.hbm, 169, rfl⟩
abbrev main_call2_v5 : Ref sig .tc := ⟨.hbm, 170, rfl⟩
abbrev main_call2_v6 : Ref sig .tc := ⟨.hbm, 171, rfl⟩
abbrev main_call2_cst_1 : Ref sig .tc := ⟨.hbm, 172, rfl⟩
abbrev main_call2_v7 : Ref sig .tc := ⟨.hbm, 173, rfl⟩
abbrev main_call2_v8 : Ref sig .tc := ⟨.hbm, 174, rfl⟩
abbrev main_call2_v9 : Ref sig .tc := ⟨.hbm, 175, rfl⟩
abbrev main_call2_v10 : Ref sig .tc := ⟨.hbm, 176, rfl⟩
abbrev main_v117 : Ref sig .tc := ⟨.hbm, 177, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The kernel program's run, with its final memory named.

  The program is three launches among stretches of host operations.  Its buffer contents at each boundary form a
  chain from the launch memory: a stretch of host operations applies them in order, and a launch leaves each of its
  arrays at what its write-backs leave and every other buffer as it found it.  Every weakly fair execution terminates
  without a fault, and in its final memory EVERY buffer of the TensorCore that outlives the program holds the last
  link of that chain.  In particular the result buffer does, and each argument array is what it was at launch.
-/
import proofs.«120692_j18992345383143_2_alg».proof.Proof.Gen.KernelIdeal.Frame

set_option maxRecDepth 16384

noncomputable section

namespace Cert.KernelIdeal.FinalMemory

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from a memory with zero counters terminates, nothing faulting, and every buffer that
    outlives the program ends at the last link of the chain of boundary contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run with the result buffer and the argument arrays read off the final memory: the result holds the
    chain's last link at the result buffer, and each argument array ends as launched. -/
theorem run_result : θ_run defs (onTc (τ := τ) (main (F := F))) ⟨m, fun _ => 0, ρ⟩ (fun r => ∀ c : Dev nD,
      r.2.mem ((c.tc : Thread nD τ).loc main_v71) = W6 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨h c _ (mem_uc main_v71 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c),
      (h c _ (mem_uc main_arg12 (by decide))).trans (W6_main_arg12 m ρ c),
      (h c _ (mem_uc main_arg13 (by decide))).trans (W6_main_arg13 m ρ c),
      (h c _ (mem_uc main_arg14 (by decide))).trans (W6_main_arg14 m ρ c),
      (h c _ (mem_uc main_arg15 (by decide))).trans (W6_main_arg15 m ρ c),
      (h c _ (mem_uc main_arg16 (by decide))).trans (W6_main_arg16 m ρ c),
      (h c _ (mem_uc main_arg17 (by decide))).trans (W6_main_arg17 m ρ c),
      (h c _ (mem_uc main_arg18 (by decide))).trans (W6_main_arg18 m ρ c),
      (h c _ (mem_uc main_arg19 (by decide))).trans (W6_main_arg19 m ρ c),
      (h c _ (mem_uc main_arg20 (by decide))).trans (W6_main_arg20 m ρ c)⟩)
    (run_all m ρ)

end Cert.KernelIdeal.FinalMemory

end
-- ==== Proof.HostChain.lean ====
/-
  The host side of the kernel program: the neighbour aggregation, and what each launch finds in its buffers.

  Every layer aggregates over the edges in the same way.  An edge e has a source and a destination node (rows 0
  and 1 of the edge index) and a weight.  The source's feature row — a negative source counted from the end — is
  scaled by the edge's weight; the scaled rows are summed into their destination nodes; and each node's sum is
  divided by its number of incoming edges, taken as at least one.  Those steps are named here once, as functions of
  the feature array, the weights and the edge index, so that both programs' aggregates are the same named function of
  equal arguments and nothing ever opens a gather or a scatter.
-/
import proofs.«120692_j18992345383143_2_alg».proof.Proof.Gen.KernelIdeal.Frame

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

variable {F : FTy → Type} [FloatOps F]

/-- The source node of every edge: row 0 of the edge index. -/
def edgeSrc (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- The destination node of every edge: row 1 of the edge index. -/
def edgeDst (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- A weight of one on every edge. -/
def unitWeights : (⟨S800000, .f32⟩ : BufTy).Contents (Elt F) :=
  broadcastInDim S800000 ![] bcast_S_S800000 (constant S_ .f32 0x3F800000#32)

/-- The number of incoming edges of every node (ones summed into their destinations), taken as at least one. -/
def inDegree (dst : (⟨S800000, .i32⟩ : BufTy).Contents (Elt F)) : (⟨S50000, .f32⟩ : BufTy).Contents (Elt F) :=
  maximumf
    (Host.scatterAdd scatter_S50000_S800000x1_S800000_n_0_0_1
      (broadcastInDim S50000 ![] bcast_S_S50000 (constant S_ .f32 0x00000000#32))
      (broadcastInDim S800000x1 ![0] bcast_S800000_S800000x1_0 dst)
      (unitWeights (F := F)))
    (broadcastInDim S50000 ![] bcast_S_S50000 (constant S_ .f32 0x3F800000#32))

/-- The neighbour aggregate of a feature array: each edge's source row (a negative source counted from the end),
    scaled by the edge's weight, summed into the edge's destination, each node's sum divided by its in-degree. -/
def aggregate (feat : (⟨S50000x128, .f32⟩ : BufTy).Contents (Elt F)) (w : (⟨S800000, .f32⟩ : BufTy).Contents (Elt F)) (src dst : (⟨S800000, .i32⟩ : BufTy).Contents (Elt F)) (deg : (⟨S50000, .f32⟩ : BufTy).Contents (Elt F)) : (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (mulf
        (Host.gather gather_S50000x128_S800000x1_S800000x128_1_0_n_n_0_1_1128 feat
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32))) src)))
        (broadcastInDim S800000x128 ![0, 1] bcast_S800000x1_S800000x128_0_1
          (broadcastInDim S800000x1 ![0] bcast_S800000_S800000x1_0 w))))
    (broadcastInDim S50000x128 ![0, 1] bcast_S50000x1_S50000x128_0_1
      (broadcastInDim S50000x1 ![0] bcast_S50000_S50000x1_0 deg))

variable (m : (ℓ : Loc nD τ sig) → Buf (Elt F) ℓ) (ρ : Dev nD → PrngReg) (c : Dev nD)

/-! ## What the first launch finds: the buffers after the first stretch of host operations -/

theorem first_src : W1 m ρ c (Proc.devRef .tc main_v1) = edgeSrc (m ((c : Thread nD τ).loc main_arg1)) := by
  show StableHlo.after hostOps0 (W0 m ρ c) (Proc.devRef .tc main_v1) = _
  after_results_simp
  rfl
theorem first_dst : W1 m ρ c (Proc.devRef .tc main_v3) = edgeDst (m ((c : Thread nD τ).loc main_arg1)) := by
  show StableHlo.after hostOps0 (W0 m ρ c) (Proc.devRef .tc main_v3) = _
  after_results_simp
  rfl
theorem first_unitWeights : W1 m ρ c (Proc.devRef .tc main_v4) = unitWeights (F := F) := by
  show StableHlo.after hostOps0 (W0 m ρ c) (Proc.devRef .tc main_v4) = _
  after_results_simp
  rfl
theorem first_inDegree : W1 m ρ c (Proc.devRef .tc main_v9) = inDegree (edgeDst (m ((c : Thread nD τ).loc main_arg1))) := by
  show StableHlo.after hostOps0 (W0 m ρ c) (Proc.devRef .tc main_v9) = _
  after_results_simp
  rfl
theorem first_aggregate : W1 m ρ c (Proc.devRef .tc main_v25) = aggregate (m ((c : Thread nD τ).loc main_arg0)) (m ((c : Thread nD τ).loc main_arg3)) (edgeSrc (m ((c : Thread nD τ).loc main_arg1))) (edgeDst (m ((c : Thread nD τ).loc main_arg1))) (inDegree (edgeDst (m ((c : Thread nD τ).loc main_arg1)))) := by
  show StableHlo.after hostOps0 (W0 m ρ c) (Proc.devRef .tc main_v25) = _
  after_results_simp
  rfl

/-- No host operation writes an argument array: after the first stretch it is what it was at launch. -/
theorem first_arg0 : W1 m ρ c (Proc.devRef .tc main_arg0) = m ((c : Thread nD τ).loc main_arg0) := by
  show StableHlo.after hostOps0 (W0 m ρ c) (Proc.devRef .tc main_arg0) = _
  after_results_simp
theorem first_arg3 : W1 m ρ c (Proc.devRef .tc main_arg3) = m ((c : Thread nD τ).loc main_arg3) := by
  show StableHlo.after hostOps0 (W0 m ρ c) (Proc.devRef .tc main_arg3) = _
  after_results_simp
theorem first_arg4 : W1 m ρ c (Proc.devRef .tc main_arg4) = m ((c : Thread nD τ).loc main_arg4) := by
  show StableHlo.after hostOps0 (W0 m ρ c) (Proc.devRef .tc main_arg4) = _
  after_results_simp
theorem first_arg6 : W1 m ρ c (Proc.devRef .tc main_arg6) = m ((c : Thread nD τ).loc main_arg6) := by
  show StableHlo.after hostOps0 (W0 m ρ c) (Proc.devRef .tc main_arg6) = _
  after_results_simp
theorem first_arg7 : W1 m ρ c (Proc.devRef .tc main_arg7) = m ((c : Thread nD τ).loc main_arg7) := by
  show StableHlo.after hostOps0 (W0 m ρ c) (Proc.devRef .tc main_arg7) = _
  after_results_simp
theorem first_arg8 : W1 m ρ c (Proc.devRef .tc main_arg8) = m ((c : Thread nD τ).loc main_arg8) := by
  show StableHlo.after hostOps0 (W0 m ρ c) (Proc.devRef .tc main_arg8) = _
  after_results_simp
theorem first_arg9 : W1 m ρ c (Proc.devRef .tc main_arg9) = m ((c : Thread nD τ).loc main_arg9) := by
  show StableHlo.after hostOps0 (W0 m ρ c) (Proc.devRef .tc main_arg9) = _
  after_results_simp
theorem first_arg10 : W1 m ρ c (Proc.devRef .tc main_arg10) = m ((c : Thread nD τ).loc main_arg10) := by
  show StableHlo.after hostOps0 (W0 m ρ c) (Proc.devRef .tc main_arg10) = _
  after_results_simp
theorem first_arg11 : W1 m ρ c (Proc.devRef .tc main_arg11) = m ((c : Thread nD τ).loc main_arg11) := by
  show StableHlo.after hostOps0 (W0 m ρ c) (Proc.devRef .tc main_arg11) = _
  after_results_simp
theorem first_arg12 : W1 m ρ c (Proc.devRef .tc main_arg12) = m ((c : Thread nD τ).loc main_arg12) := by
  show StableHlo.after hostOps0 (W0 m ρ c) (Proc.devRef .tc main_arg12) = _
  after_results_simp
theorem first_arg17 : W1 m ρ c (Proc.devRef .tc main_arg17) = m ((c : Thread nD τ).loc main_arg17) := by
  show StableHlo.after hostOps0 (W0 m ρ c) (Proc.devRef .tc main_arg17) = _
  after_results_simp
theorem first_arg18 : W1 m ρ c (Proc.devRef .tc main_arg18) = m ((c : Thread nD τ).loc main_arg18) := by
  show StableHlo.after hostOps0 (W0 m ρ c) (Proc.devRef .tc main_arg18) = _
  after_results_simp
theorem first_arg19 : W1 m ρ c (Proc.devRef .tc main_arg19) = m ((c : Thread nD τ).loc main_arg19) := by
  show StableHlo.after hostOps0 (W0 m ρ c) (Proc.devRef .tc main_arg19) = _
  after_results_simp
theorem first_arg20 : W1 m ρ c (Proc.devRef .tc main_arg20) = m ((c : Thread nD τ).loc main_arg20) := by
  show StableHlo.after hostOps0 (W0 m ρ c) (Proc.devRef .tc main_arg20) = _
  after_results_simp

/-- The first hidden layer's bias and batch-norm vectors, re-laid as one-row matrices. -/
theorem first_row_v26 : W1 m ρ c (Proc.devRef .tc main_v26) = shapeCast S1x128 (m ((c : Thread nD τ).loc main_arg5)) shapeCasts_S128_S1x128 := by
  show StableHlo.after hostOps0 (W0 m ρ c) (Proc.devRef .tc main_v26) = _
  after_results_simp
  rfl
theorem first_row_v27 : W1 m ρ c (Proc.devRef .tc main_v27) = shapeCast S1x128 (m ((c : Thread nD τ).loc main_arg13)) shapeCasts_S128_S1x128 := by
  show StableHlo.after hostOps0 (W0 m ρ c) (Proc.devRef .tc main_v27) = _
  after_results_simp
  rfl
theorem first_row_v28 : W1 m ρ c (Proc.devRef .tc main_v28) = shapeCast S1x128 (m ((c : Thread nD τ).loc main_arg14)) shapeCasts_S128_S1x128 := by
  show StableHlo.after hostOps0 (W0 m ρ c) (Proc.devRef .tc main_v28) = _
  after_results_simp
  rfl
theorem first_row_v29 : W1 m ρ c (Proc.devRef .tc main_v29) = shapeCast S1x128 (m ((c : Thread nD τ).loc main_arg15)) shapeCasts_S128_S1x128 := by
  show StableHlo.after hostOps0 (W0 m ρ c) (Proc.devRef .tc main_v29) = _
  after_results_simp
  rfl
theorem first_row_v30 : W1 m ρ c (Proc.devRef .tc main_v30) = shapeCast S1x128 (m ((c : Thread nD τ).loc main_arg16)) shapeCasts_S128_S1x128 := by
  show StableHlo.after hostOps0 (W0 m ρ c) (Proc.devRef .tc main_v30) = _
  after_results_simp
  rfl

/-- The same readings at the references the first launch's windows read. -/
theorem first_window_aggregate : V1 m ρ c main_v25
    = aggregate (m ((c : Thread nD τ).loc main_arg0)) (m ((c : Thread nD τ).loc main_arg3)) (edgeSrc (m ((c : Thread nD τ).loc main_arg1))) (edgeDst (m ((c : Thread nD τ).loc main_arg1))) (inDegree (edgeDst (m ((c : Thread nD τ).loc main_arg1)))) := first_aggregate m ρ c
theorem first_window_arg0 : V1 m ρ c main_arg0 = m ((c : Thread nD τ).loc main_arg0) := first_arg0 m ρ c
theorem first_window_arg4 : V1 m ρ c main_arg4 = m ((c : Thread nD τ).loc main_arg4) := first_arg4 m ρ c
theorem first_window_arg6 : V1 m ρ c main_arg6 = m ((c : Thread nD τ).loc main_arg6) := first_arg6 m ρ c
theorem first_window_v26 : V1 m ρ c main_v26 = shapeCast S1x128 (m ((c : Thread nD τ).loc main_arg5)) shapeCasts_S128_S1x128 := first_row_v26 m ρ c
theorem first_window_v27 : V1 m ρ c main_v27 = shapeCast S1x128 (m ((c : Thread nD τ).loc main_arg13)) shapeCasts_S128_S1x128 := first_row_v27 m ρ c
theorem first_window_v28 : V1 m ρ c main_v28 = shapeCast S1x128 (m ((c : Thread nD τ).loc main_arg14)) shapeCasts_S128_S1x128 := first_row_v28 m ρ c
theorem first_window_v29 : V1 m ρ c main_v29 = shapeCast S1x128 (m ((c : Thread nD τ).loc main_arg15)) shapeCasts_S128_S1x128 := first_row_v29 m ρ c
theorem first_window_v30 : V1 m ρ c main_v30 = shapeCast S1x128 (m ((c : Thread nD τ).loc main_arg16)) shapeCasts_S128_S1x128 := first_row_v30 m ρ c

/-! ## After the first launch -/

/-- The first launch's result array is what its write-backs leave. -/
theorem second_features : W2 m ρ c (Proc.devRef .tc main_v31) = (dat0 (V1 m ρ) c).arrAt 9 cfg0.N := W2_arr m ρ c 9

/-- A buffer that is none of the first launch's arrays is as the launch found it. -/
theorem second_keeps_v1 : W2 m ρ c (Proc.devRef .tc main_v1) = W1 m ρ c (Proc.devRef .tc main_v1) := W2_of_ne m ρ c main_v1 (by decide)
theorem second_keeps_v3 : W2 m ρ c (Proc.devRef .tc main_v3) = W1 m ρ c (Proc.devRef .tc main_v3) := W2_of_ne m ρ c main_v3 (by decide)
theorem second_keeps_v4 : W2 m ρ c (Proc.devRef .tc main_v4) = W1 m ρ c (Proc.devRef .tc main_v4) := W2_of_ne m ρ c main_v4 (by decide)
theorem second_keeps_v9 : W2 m ρ c (Proc.devRef .tc main_v9) = W1 m ρ c (Proc.devRef .tc main_v9) := W2_of_ne m ρ c main_v9 (by decide)
theorem second_keeps_arg3 : W2 m ρ c (Proc.devRef .tc main_arg3) = W1 m ρ c (Proc.devRef .tc main_arg3) := W2_of_ne m ρ c main_arg3 (by decide)
theorem second_keeps_arg7 : W2 m ρ c (Proc.devRef .tc main_arg7) = W1 m ρ c (Proc.devRef .tc main_arg7) := W2_of_ne m ρ c main_arg7 (by decide)
theorem second_keeps_arg8 : W2 m ρ c (Proc.devRef .tc main_arg8) = W1 m ρ c (Proc.devRef .tc main_arg8) := W2_of_ne m ρ c main_arg8 (by decide)
theorem second_keeps_arg9 : W2 m ρ c (Proc.devRef .tc main_arg9) = W1 m ρ c (Proc.devRef .tc main_arg9) := W2_of_ne m ρ c main_arg9 (by decide)
theorem second_keeps_arg10 : W2 m ρ c (Proc.devRef .tc main_arg10) = W1 m ρ c (Proc.devRef .tc main_arg10) := W2_of_ne m ρ c main_arg10 (by decide)
theorem second_keeps_arg11 : W2 m ρ c (Proc.devRef .tc main_arg11) = W1 m ρ c (Proc.devRef .tc main_arg11) := W2_of_ne m ρ c main_arg11 (by decide)
theorem second_keeps_arg12 : W2 m ρ c (Proc.devRef .tc main_arg12) = W1 m ρ c (Proc.devRef .tc main_arg12) := W2_of_ne m ρ c main_arg12 (by decide)
theorem second_keeps_arg17 : W2 m ρ c (Proc.devRef .tc main_arg17) = W1 m ρ c (Proc.devRef .tc main_arg17) := W2_of_ne m ρ c main_arg17 (by decide)
theorem second_keeps_arg18 : W2 m ρ c (Proc.devRef .tc main_arg18) = W1 m ρ c (Proc.devRef .tc main_arg18) := W2_of_ne m ρ c main_arg18 (by decide)
theorem second_keeps_arg19 : W2 m ρ c (Proc.devRef .tc main_arg19) = W1 m ρ c (Proc.devRef .tc main_arg19) := W2_of_ne m ρ c main_arg19 (by decide)
theorem second_keeps_arg20 : W2 m ρ c (Proc.devRef .tc main_arg20) = W1 m ρ c (Proc.devRef .tc main_arg20) := W2_of_ne m ρ c main_arg20 (by decide)

/-! ## What the second launch finds: the buffers after the second stretch of host operations -/

theorem second_aggregate : V3 m ρ c main_v47
    = aggregate (W2 m ρ c (Proc.devRef .tc main_v31)) (m ((c : Thread nD τ).loc main_arg3)) (edgeSrc (m ((c : Thread nD τ).loc main_arg1))) (edgeDst (m ((c : Thread nD τ).loc main_arg1))) (inDegree (edgeDst (m ((c : Thread nD τ).loc main_arg1)))) := by
  show StableHlo.after hostOps1 (W2 m ρ c) (Proc.devRef .tc main_v47) = _
  after_results_simp
  rw [second_keeps_arg3, second_keeps_v1, second_keeps_v3, second_keeps_v9, first_arg3, first_src, first_dst, first_inDegree]
  rfl

theorem second_self : V3 m ρ c main_v31 = W2 m ρ c (Proc.devRef .tc main_v31) := by
  show StableHlo.after hostOps1 (W2 m ρ c) (Proc.devRef .tc main_v31) = _
  after_results_simp
theorem second_arg7 : V3 m ρ c main_arg7 = m ((c : Thread nD τ).loc main_arg7) := by
  show StableHlo.after hostOps1 (W2 m ρ c) (Proc.devRef .tc main_arg7) = _
  after_results_simp
  rw [second_keeps_arg7, first_arg7]
theorem second_arg9 : V3 m ρ c main_arg9 = m ((c : Thread nD τ).loc main_arg9) := by
  show StableHlo.after hostOps1 (W2 m ρ c) (Proc.devRef .tc main_arg9) = _
  after_results_simp
  rw [second_keeps_arg9, first_arg9]
theorem second_row_v48 : V3 m ρ c main_v48 = shapeCast S1x128 (m ((c : Thread nD τ).loc main_arg8)) shapeCasts_S128_S1x128 := by
  show StableHlo.after hostOps1 (W2 m ρ c) (Proc.devRef .tc main_v48) = _
  after_results_simp
  rw [second_keeps_arg8, first_arg8]
  rfl
theorem second_row_v49 : V3 m ρ c main_v49 = shapeCast S1x128 (m ((c : Thread nD τ).loc main_arg17)) shapeCasts_S128_S1x128 := by
  show StableHlo.after hostOps1 (W2 m ρ c) (Proc.devRef .tc main_v49) = _
  after_results_simp
  rw [second_keeps_arg17, first_arg17]
  rfl
theorem second_row_v50 : V3 m ρ c main_v50 = shapeCast S1x128 (m ((c : Thread nD τ).loc main_arg18)) shapeCasts_S128_S1x128 := by
  show StableHlo.after hostOps1 (W2 m ρ c) (Proc.devRef .tc main_v50) = _
  after_results_simp
  rw [second_keeps_arg18, first_arg18]
  rfl
theorem second_row_v51 : V3 m ρ c main_v51 = shapeCast S1x128 (m ((c : Thread nD τ).loc main_arg19)) shapeCasts_S128_S1x128 := by
  show StableHlo.after hostOps1 (W2 m ρ c) (Proc.devRef .tc main_v51) = _
  after_results_simp
  rw [second_keeps_arg19, first_arg19]
  rfl
theorem second_row_v52 : V3 m ρ c main_v52 = shapeCast S1x128 (m ((c : Thread nD τ).loc main_arg20)) shapeCasts_S128_S1x128 := by
  show StableHlo.after hostOps1 (W2 m ρ c) (Proc.devRef .tc main_v52) = _
  after_results_simp
  rw [second_keeps_arg20, first_arg20]
  rfl

/-! ## After the second launch -/

/-- The second launch's result array is what its write-backs leave. -/
theorem third_features : W4 m ρ c (Proc.devRef .tc main_v53) = (dat1 (V3 m ρ) c).arrAt 9 cfg1.N := W4_arr m ρ c 9

/-- A buffer that neither the second stretch writes nor the second launch owns is as the first launch left it. -/
theorem third_keeps_v1 : W4 m ρ c (Proc.devRef .tc main_v1) = W1 m ρ c (Proc.devRef .tc main_v1) :=
  (W4_of_ne m ρ c main_v1 (by decide)).trans ((show StableHlo.after hostOps1 (W2 m ρ c) (Proc.devRef .tc main_v1) = W2 m ρ c (Proc.devRef .tc main_v1) by
    after_results_simp).trans (second_keeps_v1 m ρ c))
theorem third_keeps_v3 : W4 m ρ c (Proc.devRef .tc main_v3) = W1 m ρ c (Proc.devRef .tc main_v3) :=
  (W4_of_ne m ρ c main_v3 (by decide)).trans ((show StableHlo.after hostOps1 (W2 m ρ c) (Proc.devRef .tc main_v3) = W2 m ρ c (Proc.devRef .tc main_v3) by
    after_results_simp).trans (second_keeps_v3 m ρ c))
theorem third_keeps_v4 : W4 m ρ c (Proc.devRef .tc main_v4) = W1 m ρ c (Proc.devRef .tc main_v4) :=
  (W4_of_ne m ρ c main_v4 (by decide)).trans ((show StableHlo.after hostOps1 (W2 m ρ c) (Proc.devRef .tc main_v4) = W2 m ρ c (Proc.devRef .tc main_v4) by
    after_results_simp).trans (second_keeps_v4 m ρ c))
theorem third_keeps_v9 : W4 m ρ c (Proc.devRef .tc main_v9) = W1 m ρ c (Proc.devRef .tc main_v9) :=
  (W4_of_ne m ρ c main_v9 (by decide)).trans ((show StableHlo.after hostOps1 (W2 m ρ c) (Proc.devRef .tc main_v9) = W2 m ρ c (Proc.devRef .tc main_v9) by
    after_results_simp).trans (second_keeps_v9 m ρ c))
theorem third_keeps_arg10 : W4 m ρ c (Proc.devRef .tc main_arg10) = W1 m ρ c (Proc.devRef .tc main_arg10) :=
  (W4_of_ne m ρ c main_arg10 (by decide)).trans ((show StableHlo.after hostOps1 (W2 m ρ c) (Proc.devRef .tc main_arg10) = W2 m ρ c (Proc.devRef .tc main_arg10) by
    after_results_simp).trans (second_keeps_arg10 m ρ c))
theorem third_keeps_arg11 : W4 m ρ c (Proc.devRef .tc main_arg11) = W1 m ρ c (Proc.devRef .tc main_arg11) :=
  (W4_of_ne m ρ c main_arg11 (by decide)).trans ((show StableHlo.after hostOps1 (W2 m ρ c) (Proc.devRef .tc main_arg11) = W2 m ρ c (Proc.devRef .tc main_arg11) by
    after_results_simp).trans (second_keeps_arg11 m ρ c))
theorem third_keeps_arg12 : W4 m ρ c (Proc.devRef .tc main_arg12) = W1 m ρ c (Proc.devRef .tc main_arg12) :=
  (W4_of_ne m ρ c main_arg12 (by decide)).trans ((show StableHlo.after hostOps1 (W2 m ρ c) (Proc.devRef .tc main_arg12) = W2 m ρ c (Proc.devRef .tc main_arg12) by
    after_results_simp).trans (second_keeps_arg12 m ρ c))

/-! ## What the third launch finds: the buffers after the third stretch of host operations -/

theorem third_aggregate : V5 m ρ c main_v69
    = aggregate (W4 m ρ c (Proc.devRef .tc main_v53)) (unitWeights (F := F)) (edgeSrc (m ((c : Thread nD τ).loc main_arg1))) (edgeDst (m ((c : Thread nD τ).loc main_arg1))) (inDegree (edgeDst (m ((c : Thread nD τ).loc main_arg1)))) := by
  show StableHlo.after hostOps2 (W4 m ρ c) (Proc.devRef .tc main_v69) = _
  after_results_simp
  rw [third_keeps_v4, third_keeps_v1, third_keeps_v3, third_keeps_v9, first_unitWeights, first_src, first_dst, first_inDegree]
  rfl

theorem third_self : V5 m ρ c main_v53 = W4 m ρ c (Proc.devRef .tc main_v53) := by
  show StableHlo.after hostOps2 (W4 m ρ c) (Proc.devRef .tc main_v53) = _
  after_results_simp
theorem third_arg10 : V5 m ρ c main_arg10 = m ((c : Thread nD τ).loc main_arg10) := by
  show StableHlo.after hostOps2 (W4 m ρ c) (Proc.devRef .tc main_arg10) = _
  after_results_simp
  rw [third_keeps_arg10, first_arg10]
theorem third_arg12 : V5 m ρ c main_arg12 = m ((c : Thread nD τ).loc main_arg12) := by
  show StableHlo.after hostOps2 (W4 m ρ c) (Proc.devRef .tc main_arg12) = _
  after_results_simp
  rw [third_keeps_arg12, first_arg12]
theorem third_row_v70 : V5 m ρ c main_v70 = shapeCast S1x40 (m ((c : Thread nD τ).loc main_arg11)) shapeCasts_S40_S1x40 := by
  show StableHlo.after hostOps2 (W4 m ρ c) (Proc.devRef .tc main_v70) = _
  after_results_simp
  rw [third_keeps_arg11, first_arg11]
  rfl

/-! ## After the third launch -/

/-- The program's result array is what the third launch's write-backs leave. -/
theorem result_array : W6 m ρ c (Proc.devRef .tc main_v71) = (dat2 (V5 m ρ) c).arrAt 5 cfg2.N := W6_arr m ρ c 5

end Cert.KernelIdeal.HostChain

end
-- ==== Proof.LayerSpec.lean ====
/-
  One layer of the graph network, stated index by index on the extended reals.

  A layer takes the neighbour aggregate `agg` and the node features `x` (both N × K), two weight matrices
  (K × C) and a bias (C).  Its affine part at node `i`, channel `j` is
      (Σₖ agg[i,k]·Wl[k,j] + bl[j]) + Σₖ x[i,k]·Wr[k,j].
  A hidden layer then applies batch normalisation with fixed statistics and a rectifier,
      max ((h − mean[j]) · (γ[j] · rsqrt (var[j] + ε)) + β[j], 0),
  and the last layer the logarithm of the softmax along the channels,
      (h[j] − m) − log Σⱼ' exp (h[j'] − m),   m = maxⱼ' h[j'] (a fold of max from −∞).
  The two constants ε and 0 are kept as the binary32 words the programs carry; nothing here evaluates them.

  Three small laws join the two programs' spellings of these formulas: the bias may be added before or after the
  second product (addition on the extended reals is commutative and associative, infinities included); a maximum
  with the fold's own starting value changes nothing; and a sum started from the zero word is the sum.
-/
import Idealize.ShloMosaic.PureOps.Ideal
import Idealize.ShloMosaic.PureOps.Ideal.Laws
import Idealize.ShloMosaic.Lib.ValueIdx
import Mathlib.Data.Finset.Fold

noncomputable section

namespace Cert.Sage

open Idealize.ShloMosaic Idealize.ShloMosaic.ValueIdx

/-- An N × K array of extended reals, indexed as the programs index it. -/
abbrev Mat (a b : Nat) : Type := (⟨2, ![a, b]⟩ : Shape).Idx → EReal

/-- The word of the batch-norm ε (the binary32 nearest 1e-5) and of zero, read as extended reals. -/
abbrev epsWord : EReal := Ideal.ofBits .f32 0x3727C5AC#32
abbrev zeroWord : EReal := Ideal.ofBits .f32 0x00000000#32
/-- The word of −∞, the value a row maximum starts from. -/
abbrev negInfWord : EReal := Ideal.ofBits .f32 0xFF800000#32

/-- The affine part of a layer at node `i`, channel `j`: neighbour aggregate times `Wl`, plus the bias, plus the
    node's own features times `Wr`. -/
def affineAt {N K C : Nat} (agg x : Mat N K) (Wl Wr : Mat K C) (bl : Fin C → EReal) (i : Fin N) (j : Fin C) : EReal :=
  (∑ k : Fin K, agg (ix2 i k) * Wl (ix2 k j) + bl j) + ∑ k : Fin K, x (ix2 i k) * Wr (ix2 k j)

/-- A hidden layer at (i, j): the affine part, normalised with fixed statistics, then rectified. -/
def bnReluAt {N K C : Nat} (agg x : Mat N K) (Wl Wr : Mat K C) (bl gamma beta mean var : Fin C → EReal)
    (i : Fin N) (j : Fin C) : EReal :=
  max ((affineAt agg x Wl Wr bl i j - mean j) * (gamma j * Ideal.rsqrt (var j + epsWord)) + beta j) zeroWord

/-- The hidden layer as an array. -/
def bnRelu {N K C : Nat} (agg x : Mat N K) (Wl Wr : Mat K C) (bl gamma beta mean var : Fin C → EReal) : Mat N C :=
  fun idx => bnReluAt agg x Wl Wr bl gamma beta mean var (idx 0) (idx 1)

/-- The largest entry of a row of C numbers, as a fold of max from −∞. -/
def rowMax {C : Nat} (h : Fin C → EReal) : EReal := (Finset.univ : Finset (Fin C)).fold max negInfWord h

/-- The logarithm of the softmax of a row at channel `j`, shifted by the row's maximum. -/
def logSoftmaxRow {C : Nat} (h : Fin C → EReal) (j : Fin C) : EReal :=
  (h j - rowMax h) - Ideal.log (∑ j' : Fin C, Ideal.exp (h j' - rowMax h))

/-- The last layer at (i, j): log-softmax along the channels of the affine part. -/
def logSoftmaxAt {N K C : Nat} (agg x : Mat N K) (Wl Wr : Mat K C) (bl : Fin C → EReal) (i : Fin N) (j : Fin C) : EReal :=
  logSoftmaxRow (fun j' => affineAt agg x Wl Wr bl i j') j

/-- The last layer as an array. -/
def logSoftmaxLayer {N K C : Nat} (agg x : Mat N K) (Wl Wr : Mat K C) (bl : Fin C → EReal) : Mat N C :=
  fun idx => logSoftmaxAt agg x Wl Wr bl (idx 0) (idx 1)

theorem bnRelu_apply {N K C : Nat} (agg x : Mat N K) (Wl Wr : Mat K C) (bl gamma beta mean var : Fin C → EReal)
    (i : Fin N) (j : Fin C) :
    bnRelu agg x Wl Wr bl gamma beta mean var (ix2 i j) = bnReluAt agg x Wl Wr bl gamma beta mean var i j := rfl

theorem logSoftmaxLayer_apply {N K C : Nat} (agg x : Mat N K) (Wl Wr : Mat K C) (bl : Fin C → EReal)
    (i : Fin N) (j : Fin C) :
    logSoftmaxLayer agg x Wl Wr bl (ix2 i j) = logSoftmaxAt agg x Wl Wr bl i j := rfl

/-- The bias may be added after the second product instead of between the two: (a + c) + b = (a + b) + c. -/
theorem affine_bias_last (a b c : EReal) : (a + c) + b = (a + b) + c := add_right_comm a c b

/-- A fold of max is never below its starting value, so a further maximum with that value changes nothing. -/
theorem max_start_fold {ι : Type*} (s : Finset ι) (b : EReal) (f : ι → EReal) : max b (s.fold max b f) = s.fold max b f :=
  max_eq_right ((Finset.le_fold_max b).mpr (Or.inl le_rfl))

/-- A sum started from the zero word is the sum. -/
theorem zeroWord_add (a : EReal) : zeroWord + a = a := by
  show Ideal.ofBits .f32 0x00000000#32 + a = a
  rw [Ideal.ofBits_zero_f32, zero_add]

end Cert.Sage

end
-- ==== Proof.HiddenBlock.lean ====
/-
  The body of a hidden layer, read at one entry of its output block.

  The body multiplies the block of neighbour aggregates and the block of node features (each 2000 × 128) by the two
  128 × 128 weight matrices, adds the two products, then the bias row; it then normalises with the fixed statistics,
      (h − mean) · (γ · rsqrt (var + ε)) + β,
  and takes the maximum with zero.  Every step but the two products acts entry by entry, and a row of 128 numbers
  spread over the 2000 rows is read at its column.  A product accumulated from zero, at row p and column q, is the sum
  over the 128 contracted positions of the products of the entries (p, k) and (k, q).  So at (p, q) the body's value is
  the layer's formula at the array row the block's row p stands for, with the bias added after the second product
  instead of between the two; addition on the extended reals is commutative and associative, so that is the same sum.

  The second launch's body differs from the first only by one more cast of the feature block to its own shape.
-/
import proofs.«120692_j18992345383143_2_alg».proof.Proof.Gen.KernelIdeal.Skeleton
import proofs.«120692_j18992345383143_2_alg».proof.Proof.LayerSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HiddenBlock

open Cert.KernelIdeal Cert.KernelIdeal.Gen Idealize.ShloMosaic Idealize.ShloMosaic.ValueIdx

/-! ## A block product at an entry -/

/-- The left factor's entry for output entry `i` and contracted position `r`: row of `i`, … -/
theorem left_row (i : S2000x128.Idx) (r : dot_S2000x128_S128x128_S2000x128_1_0_0_1_n_n.contr.Idx) :
    (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- … column `r`. -/
theorem left_col (i : S2000x128.Idx) (r : dot_S2000x128_S128x128_S2000x128_1_0_0_1_n_n.contr.Idx) :
    (dot_S2000x128_S128x128_S2000x128_1_0_0_1_n_n.lhsIdx i r 1).val = (r ⟨0, by decide⟩).val :=
  dot_S2000x128_S128x128_S2000x128_1_0_0_1_n_n.lhsIdx_val_of_single rfl i r
/-- The right factor's entry: row `r`, … -/
theorem right_row (i : S2000x128.Idx) (r : dot_S2000x128_S128x128_S2000x128_1_0_0_1_n_n.contr.Idx) :
    (dot_S2000x128_S128x128_S2000x128_1_0_0_1_n_n.rhsIdx i r 0).val = (r ⟨0, by decide⟩).val :=
  dot_S2000x128_S128x128_S2000x128_1_0_0_1_n_n.rhsIdx_val_of_single rfl i r
/-- … column of `i`. -/
theorem right_col (i : S2000x128.Idx) (r : dot_S2000x128_S128x128_S2000x128_1_0_0_1_n_n.contr.Idx) :
    (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A 2000 × 128 block times a 128 × 128 matrix, accumulated from zero, at row `p` and column `q`:
    Σₖ a[p,k] · w[k,q]. -/
theorem blockProduct_apply {φ₁ φ₂ : FTy} (a : FVec Ideal S2000x128 φ₁) (w : FVec Ideal S128x128 φ₂) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k := funext fun ax => Fin.ext (by
    match ax with
    | ⟨0, _⟩ => exact left_row _ _
    | ⟨1, _⟩ => exact (left_col _ _).trans hk)
  have er : dot_S2000x128_S128x128_S2000x128_1_0_0_1_n_n.rhsIdx (ix2 p q)
      ((contrEquiv1 dot_S2000x128_S128x128_S2000x128_1_0_0_1_n_n 128 rfl rfl).symm k) = ix2 k q := funext fun ax => Fin.ext (by
    match ax with
    | ⟨0, _⟩ => exact (right_row _ _).trans hk
    | ⟨1, _⟩ => exact right_col _ _)
  rw [el, er]

/-! ## The body at an entry -/

/-- The first launch's body at row `p`, column `q` of its output block, when row `p` of the two row blocks is row `i`
    of the arrays `agg` and `x`: the hidden layer's formula at (i, q), with the matrices and the five rows as loaded. -/
theorem body0_apply {N : Nat} (agg x : Cert.Sage.Mat N 128)
    (v0 v3 : Vec Ideal S2000x128 .f32) (v5 v7 : Vec Ideal S128x128 .f32) (v12 v16 v18 v20 v22 : Vec Ideal S1x128 .f32)
    (p : Fin 2000) (q : Fin 128) (i : Fin N)
    (h0 : ∀ k : Fin 128, v0 (ix2 p k) = agg (ix2 i k)) (h3 : ∀ k : Fin 128, v3 (ix2 p k) = x (ix2 i k)) :
    k0_pay1 (F := Ideal) v0 v3 v5 v7 v12 v16 v18 v20 v22 (ix2 p q)
      = Cert.Sage.bnReluAt agg x v5 v7 (fun j => v12 (ix2 (0 : Fin 1) j)) (fun j => v16 (ix2 (0 : Fin 1) j))
          (fun j => v18 (ix2 (0 : Fin 1) j)) (fun j => v20 (ix2 (0 : Fin 1) j)) (fun j => v22 (ix2 (0 : Fin 1) j)) i q := by
  unfold k0_pay1
  simp only [shapeCast_self]
  rw [maximumf_apply, addf_apply, mulf_apply, subf_apply, addf_apply, addf_apply]
  rw [blockProduct_apply, blockProduct_apply]
  simp only [broadcastTo_1b_ab_apply, broadcast_apply, truncf_apply, h0, h3]
  unfold Cert.Sage.bnReluAt Cert.Sage.affineAt
  rw [Cert.Sage.affine_bias_last]
  rfl

/-- The second launch's body is the first's: a cast of a block to its own shape changes nothing. -/
theorem body1_eq_body0 (v0 v3 : Vec Ideal S2000x128 .f32) (v6 v8 : Vec Ideal S128x128 .f32)
    (v13 v17 v19 v21 v23 : Vec Ideal S1x128 .f32) :
    k1_pay1 (F := Ideal) v0 v3 v6 v8 v13 v17 v19 v21 v23 = k0_pay1 (F := Ideal) v0 v3 v6 v8 v13 v17 v19 v21 v23 := by
  unfold k1_pay1 k0_pay1
  simp only [shapeCast_self]

/-- So it reads the same at an entry. -/
theorem body1_apply {N : Nat} (agg x : Cert.Sage.Mat N 128)
    (v0 v3 : Vec Ideal S2000x128 .f32) (v6 v8 : Vec Ideal S128x128 .f32) (v13 v17 v19 v21 v23 : Vec Ideal S1x128 .f32)
    (p : Fin 2000) (q : Fin 128) (i : Fin N)
    (h0 : ∀ k : Fin 128, v0 (ix2 p k) = agg (ix2 i k)) (h3 : ∀ k : Fin 128, v3 (ix2 p k) = x (ix2 i k)) :
    k1_pay1 (F := Ideal) v0 v3 v6 v8 v13 v17 v19 v21 v23 (ix2 p q)
      = Cert.Sage.bnReluAt agg x v6 v8 (fun j => v13 (ix2 (0 : Fin 1) j)) (fun j => v17 (ix2 (0 : Fin 1) j))
          (fun j => v19 (ix2 (0 : Fin 1) j)) (fun j => v21 (ix2 (0 : Fin 1) j)) (fun j => v23 (ix2 (0 : Fin 1) j)) i q := by
  rw [body1_eq_body0]
  exact body0_apply agg x v0 v3 v6 v8 v13 v17 v19 v21 v23 p q i h0 h3

end Cert.KernelIdeal.HiddenBlock

end
-- ==== Proof.Region0.lean ====
/-
  The first hidden layer's region: what its launch leaves in the output array.

  The launch runs the body at 25 points.  Point t stages rows 2000·t … 2000·t + 1999 of the neighbour aggregates and of the
  node features, the two weight matrices and the five rows whole, and writes the body's 2000 × 128 result back to the same
  rows of the output array.  Row p of a staged row block is therefore row 2000·t + p of its array, and the body's value
  there is the layer's formula at that array row.  The 25 row blocks tile the 50000 rows, so every entry of the output
  array is written by exactly the point its row falls in, and the array ends holding the layer's formula everywhere.
-/
import proofs.«120692_j18992345383143_2_alg».proof.Proof.Gen.KernelIdeal.Frame
import proofs.«120692_j18992345383143_2_alg».proof.Proof.LayerSpec
import proofs.«120692_j18992345383143_2_alg».proof.Proof.HiddenBlock
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Where each staged block sits in its array -/

/-- The block indices at point `t`: the two row-tiled inputs and the output take row block `t`; every other input is
    its whole array. Decided over the 25 points. -/
theorem block_indices : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row `p` of row block `t` is a row of the 50000. -/
theorem row_lt (t : Fin cfg0.N) (p : Fin 2000) : t.val * 2000 + p.val < 50000 := by
  have h : cfg0.N = 25 := N_0
  have := t.isLt
  have := p.isLt
  omega

/-- The array row that row `p` of row block `t` stands for. -/
abbrev arrayRow (t : Fin cfg0.N) (p : Fin 2000) : Fin 50000 := ⟨t.val * 2000 + p.val, row_lt t p⟩

/-- The staged block of neighbour aggregates at point `t`: its row `p` is row 2000·t + p of the array. -/
theorem agg_block (c : Dev nD) (t : Fin cfg0.N) (p : Fin 2000) (k : Fin 128) :
    (iblk0 V c 0 t : Vec Ideal S2000x128 .f32) (ix2 p k) = (V c main_v25 : S50000x128.Idx → EReal) (ix2 (arrayRow t p) k) := by
  obtain ⟨e0, e1, -⟩ := block_indices t
  unfold iblk0
  rw [View.read_apply]
  show V c main_v25 _ = V c main_v25 _
  congr 1
  funext a
  apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

/-- The staged block of node features at point `t`, likewise. -/
theorem feat_block (c : Dev nD) (t : Fin cfg0.N) (p : Fin 2000) (k : Fin 128) :
    (iblk0 V c 1 t : Vec Ideal S2000x128 .f32) (ix2 p k) = (V c main_arg0 : S50000x128.Idx → EReal) (ix2 (arrayRow t p) k) := by
  obtain ⟨-, -, e0, e1, -⟩ := block_indices t
  unfold iblk0
  rw [View.read_apply]
  show V c main_arg0 _ = V c main_arg0 _
  congr 1
  funext a
  apply Fin.ext
  match a with
  | ⟨0, _⟩ => show win0_1.index t (0 : Fin 2) * 2000 + 1 * p.val = t.val * 2000 + p.val; omega
  | ⟨1, _⟩ => show win0_1.index t (1 : Fin 2) * 128 + 1 * k.val = k.val; omega

/-- The first weight matrix is staged whole at every point. -/
theorem wl_block (c : Dev nD) (t : Fin cfg0.N) :
    (iblk0 V c 2 t : Vec Ideal S128x128 .f32) = (V c main_arg4 : S128x128.Idx → EReal) := by
  obtain ⟨-, -, -, -, e0, e1, -⟩ := block_indices t
  funext y
  unfold iblk0
  rw [View.read_apply]
  show V c main_arg4 _ = V c main_arg4 y
  congr 1
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The second weight matrix likewise. -/
theorem wr_block (c : Dev nD) (t : Fin cfg0.N) :
    (iblk0 V c 4 t : Vec Ideal S128x128 .f32) = (V c main_arg6 : S128x128.Idx → EReal) := by
  obtain ⟨-, -, -, -, -, -, -, -, e0, e1, -⟩ := block_indices t
  funext y
  unfold iblk0
  rw [View.read_apply]
  show V c main_arg6 _ = V c main_arg6 y
  congr 1
  funext a
  apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The bias row is staged whole at every point. -/
theorem bias_block (c : Dev nD) (t : Fin cfg0.N) :
    (iblk0 V c 3 t : Vec Ideal S1x128 .f32) = (V c main_v26 : S1x128.Idx → EReal) := by
  obtain ⟨-, -, -, -, -, -, e0, e1, -⟩ := block_indices t
  funext y
  unfold iblk0
  rw [View.read_apply]
  show V c main_v26 _ = V c main_v26 y
  congr 1
  funext a
  apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The scale row γ likewise. -/
theorem gamma_block (c : Dev nD) (t : Fin cfg0.N) :
    (iblk0 V c 5 t : Vec Ideal S1x128 .f32) = (V c main_v27 : S1x128.Idx → EReal) := by
  obtain ⟨-, -, -, -, -, -, -, -, -, -, e0, e1, -⟩ := block_indices t
  funext y
  unfold iblk0
  rw [View.read_apply]
  show V c main_v27 _ = V c main_v27 y
  congr 1
  funext a
  apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The shift row β likewise. -/
theorem beta_block (c : Dev nD) (t : Fin cfg0.N) :
    (iblk0 V c 6 t : Vec Ideal S1x128 .f32) = (V c main_v28 : S1x128.Idx → EReal) := by
  obtain ⟨-, -, -, -, -, -, -, -, -, -, -, -, e0, e1, -⟩ := block_indices t
  funext y
  unfold iblk0
  rw [View.read_apply]
  show V c main_v28 _ = V c main_v28 y
  congr 1
  funext a
  apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The row of means likewise. -/
theorem mean_block (c : Dev nD) (t : Fin cfg0.N) :
    (iblk0 V c 7 t : Vec Ideal S1x128 .f32) = (V c main_v29 : S1x128.Idx → EReal) := by
  obtain ⟨-, -, -, -, -, -, -, -, -, -, -, -, -, -, e0, e1, -⟩ := block_indices t
  funext y
  unfold iblk0
  rw [View.read_apply]
  show V c main_v29 _ = V c main_v29 y
  congr 1
  funext a
  apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- The row of variances likewise. -/
theorem var_block (c : Dev nD) (t : Fin cfg0.N) :
    (iblk0 V c 8 t : Vec Ideal S1x128 .f32) = (V c main_v30 : S1x128.Idx → EReal) := by
  obtain ⟨-, -, -, -, -, -, -, -, -, -, -, -, -, -, -, -, e0, e1, -⟩ := block_indices t
  funext y
  unfold iblk0
  rw [View.read_apply]
  show V c main_v30 _ = V c main_v30 y
  congr 1
  funext a
  apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

/-! ## What a point writes back -/

theorem zero_offsets : (![0, 0] : Fin 2 → Nat) = fun _ => 0 := funext fun a => by fin_cases a <;> rfl

/-- The hidden layer of the arrays as the region finds them. -/
abbrev layer (c : Dev nD) : Cert.Sage.Mat 50000 128 :=
  Cert.Sage.bnRelu (N := 50000) (K := 128) (C := 128) (V c main_v25) (V c main_arg0) (V c main_arg4) (V c main_arg6)
    (fun j => V c main_v26 (ix2 (0 : Fin 1) j)) (fun j => V c main_v27 (ix2 (0 : Fin 1) j)) (fun j => V c main_v28 (ix2 (0 : Fin 1) j))
    (fun j => V c main_v29 (ix2 (0 : Fin 1) j)) (fun j => V c main_v30 (ix2 (0 : Fin 1) j))

/-- Point `t` writes back rows 2000·t … 2000·t + 1999 of the layer: at row `p`, column `q` of the block the body's value is
    the layer's formula at array row 2000·t + p, which is where the output's block puts that entry. -/
theorem written_back (c : Dev nD) (t : Fin cfg0.N) :
    (dat0 (F := Ideal) V c).flushed 9 t = ((cfg0.win 9).blk t).view.read (Elt Ideal) (layer V c) := by
  show (cfg0.win 9).cut (grid0.coords t) ((dat0 (F := Ideal) V c).after 9 t) = _
  rw [after0_9]
  unfold out0_9
  rw [View.canon_unit_zero zero_offsets]
  simp only [View.ld_unit_zero (S := S2000x128) zero_offsets, View.ld_unit_zero (S := S128x128) zero_offsets,
    View.ld_unit_zero (S := S1x128) zero_offsets]
  obtain ⟨-, -, -, -, -, -, -, -, -, -, -, -, -, -, -, -, -, -, e0, e1⟩ := block_indices t
  funext j
  have hp : (j 0).val < 2000 := (j 0).isLt
  have hq : (j 1).val < 128 := (j 1).isLt
  have hx : (cfg0.win 9).xinj (grid0.coords t) j = ix2 (⟨(j 0).val, hp⟩ : Fin 2000) (⟨(j 1).val, hq⟩ : Fin 128) :=
    funext fun a => by
      match a with
      | ⟨0, _⟩ => rfl
      | ⟨1, _⟩ => rfl
  have he : ((cfg0.win 9).blk t).view.emb j = ix2 (arrayRow t ⟨(j 0).val, hp⟩) (⟨(j 1).val, hq⟩ : Fin 128) :=
    funext fun a => Fin.ext (by
      match a with
      | ⟨0, _⟩ => show win0_9.index t (0 : Fin 2) * 2000 + 1 * (j 0).val = t.val * 2000 + (j 0).val; omega
      | ⟨1, _⟩ => show win0_9.index t (1 : Fin 2) * 128 + 1 * (j 1).val = (j 1).val; omega)
  rw [View.read_apply]
  show k0_pay1 (F := Ideal) (iblk0 V c 0 t) (iblk0 V c 1 t) (iblk0 V c 2 t) (iblk0 V c 4 t) (iblk0 V c 3 t) (iblk0 V c 5 t)
      (iblk0 V c 6 t) (iblk0 V c 7 t) (iblk0 V c 8 t) ((cfg0.win 9).xinj (grid0.coords t) j)
    = layer V c (((cfg0.win 9).blk t).view.emb j)
  rw [hx, he]
  refine (HiddenBlock.body0_apply (V c main_v25) (V c main_arg0) _ _ _ _ _ _ _ _ _ _ _ (arrayRow t ⟨(j 0).val, hp⟩)
    (agg_block V c t _) (feat_block V c t _)).trans ?_
  rw [wl_block, wr_block, bias_block, gamma_block, beta_block, mean_block, var_block]
  rfl

/-! ## The row blocks tile the array -/

/-- An entry of the array is in point `t`'s block iff each coordinate is in the block's range on its axis. -/
theorem mem_block (t : Fin cfg0.N) (i : S50000x128.Idx) :
    i ∈ ((cfg0.win 9).blk t).view.set ↔ ∀ a : Fin 2, win0_9.index t a * S2000x128.size a ≤ (i a).val
      ∧ (i a).val < win0_9.index t a * S2000x128.size a + S2000x128.size a := by
  show i ∈ ((View.whole main_v31).slice (win0_9.rect t)).set ↔ _
  rw [View.set_slice_whole, Rect.mem_set_unit]
  exact Iff.rfl

/-- Every entry is written: row r is in the block of point r / 2000. -/
theorem covered (i : S50000x128.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, -, -, -, -, -, -, -, -, -, -, e0, e1⟩ := block_indices t
  refine ⟨t, flush0_9 t, ?_⟩
  rw [mem_block]
  intro a
  match a with
  | ⟨0, _⟩ =>
    show win0_9.index t (0 : Fin 2) * 2000 ≤ (i 0).val ∧ (i 0).val < win0_9.index t (0 : Fin 2) * 2000 + 2000
    omega
  | ⟨1, _⟩ =>
    show win0_9.index t (1 : Fin 2) * 128 ≤ (i 1).val ∧ (i 1).val < win0_9.index t (1 : Fin 2) * 128 + 128
    omega

/-! ## The array -/

/-- After the launch the output array holds the hidden layer of the arrays the region found. -/
theorem region0_array (c : Dev nD) :
    (dat0 (F := Ideal) V c).arrAt 9 cfg0.N
      = Cert.Sage.bnRelu (N := 50000) (K := 128) (C := 128) (V c main_v25) (V c main_arg0) (V c main_arg4) (V c main_arg6)
          (fun j => V c main_v26 (ix2 (0 : Fin 1) j)) (fun j => V c main_v27 (ix2 (0 : Fin 1) j)) (fun j => V c main_v28 (ix2 (0 : Fin 1) j))
          (fun j => V c main_v29 (ix2 (0 : Fin 1) j)) (fun j => V c main_v30 (ix2 (0 : Fin 1) j)) :=
  (dat0 (F := Ideal) V c).arrAt_eq_of_cover 9 (layer V c) (fun t _ => written_back V c t) covered

end Cert.KernelIdeal.Region0

end
-- ==== Proof.Region1.lean ====
/-
  The second hidden layer's region: what its launch leaves in the output array.

  The launch runs the body at 25 points.  Point t stages rows 2000·t … 2000·t + 1999 of this layer's neighbour aggregates
  and of its node features (the first hidden layer's output), the two weight matrices and the five rows whole, and writes
  the body's 2000 × 128 result back to the same rows of the output array.  Row p of a staged row block is therefore row
  2000·t + p of its array, and the body's value there is the layer's formula at that array row.  The 25 row blocks tile
  the 50000 rows, so every entry of the output array is written by exactly the point its row falls in, and the array ends
  holding the layer's formula everywhere.
-/
import proofs.«120692_j18992345383143_2_alg».proof.Proof.Gen.KernelIdeal.Frame
import proofs.«120692_j18992345383143_2_alg».proof.Proof.LayerSpec
import proofs.«120692_j18992345383143_2_alg».proof.Proof.HiddenBlock
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Where each staged block sits in its array -/

/-- The block indices at point `t`: the two row-tiled inputs and the output take row block `t`; every other input is
    its whole array. Decided over the 25 points. -/
theorem block_indices : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Row `p` of row block `t` is a row of the 50000. -/
theorem row_lt (t : Fin cfg1.N) (p : Fin 2000) : t.val * 2000 + p.val < 50000 := by
  have h : cfg1.N = 25 := N_1
  have := t.isLt
  have := p.isLt
  omega

/-- The array row that row `p` of row block `t` stands for. -/
abbrev arrayRow (t : Fin cfg1.N) (p : Fin 2000) : Fin 50000 := ⟨t.val * 2000 + p.val, row_lt t p⟩

/-- The staged block of neighbour aggregates at point `t`: its row `p` is row 2000·t + p of the array. -/
theorem agg_block (c : Dev nD) (t : Fin cfg1.N) (p : Fin 2000) (k : Fin 128) :
    (iblk1 V c 0 t : Vec Ideal S2000x128 .f32) (ix2 p k) = (V c main_v47 : S50000x128.Idx → EReal) (ix2 (arrayRow t p) k) := by
  obtain ⟨e0, e1, -⟩ := block_indices t
  unfold iblk1
  rw [View.read_apply]
  show V c main_v47 _ = V c main_v47 _
  congr 1
  funext a
  apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

/-- The staged block of node features at point `t`, likewise. -/
theorem feat_block (c : Dev nD) (t : Fin cfg1.N) (p : Fin 2000) (k : Fin 128) :
    (iblk1 V c 1 t : Vec Ideal S2000x128 .f32) (ix2 p k) = (V c main_v31 : S50000x128.Idx → EReal) (ix2 (arrayRow t p) k) := by
  obtain ⟨-, -, e0, e1, -⟩ := block_indices t
  unfold iblk1
  rw [View.read_apply]
  show V c main_v31 _ = V c main_v31 _
  congr 1
  funext a
  apply Fin.ext
  match a with
  | ⟨0, _⟩ => show win1_1.index t (0 : Fin 2) * 2000 + 1 * p.val = t.val * 2000 + p.val; omega
  | ⟨1, _⟩ => show win1_1.index t (1 : Fin 2) * 128 + 1 * k.val = k.val; omega

/-- The first weight matrix is staged whole at every point. -/
theorem wl_block (c : Dev nD) (t : Fin cfg1.N) :
    (iblk1 V c 2 t : Vec Ideal S128x128 .f32) = (V c main_arg7 : S128x128.Idx → EReal) := by
  obtain ⟨-, -, -, -, e0, e1, -⟩ := block_indices t
  funext y
  unfold iblk1
  rw [View.read_apply]
  show V c main_arg7 _ = V c main_arg7 y
  congr 1
  funext a
  apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The second weight matrix likewise. -/
theorem wr_block (c : Dev nD) (t : Fin cfg1.N) :
    (iblk1 V c 4 t : Vec Ideal S128x128 .f32) = (V c main_arg9 : S128x128.Idx → EReal) := by
  obtain ⟨-, -, -, -, -, -, -, -, e0, e1, -⟩ := block_indices t
  funext y
  unfold iblk1
  rw [View.read_apply]
  show V c main_arg9 _ = V c main_arg9 y
  congr 1
  funext a
  apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The bias row is staged whole at every point. -/
theorem bias_block (c : Dev nD) (t : Fin cfg1.N) :
    (iblk1 V c 3 t : Vec Ideal S1x128 .f32) = (V c main_v48 : S1x128.Idx → EReal) := by
  obtain ⟨-, -, -, -, -, -, e0, e1, -⟩ := block_indices t
  funext y
  unfold iblk1
  rw [View.read_apply]
  show V c main_v48 _ = V c main_v48 y
  congr 1
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The scale row γ likewise. -/
theorem gamma_block (c : Dev nD) (t : Fin cfg1.N) :
    (iblk1 V c 5 t : Vec Ideal S1x128 .f32) = (V c main_v49 : S1x128.Idx → EReal) := by
  obtain ⟨-, -, -, -, -, -, -, -, -, -, e0, e1, -⟩ := block_indices t
  funext y
  unfold iblk1
  rw [View.read_apply]
  show V c main_v49 _ = V c main_v49 y
  congr 1
  funext a
  apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- The shift row β likewise. -/
theorem beta_block (c : Dev nD) (t : Fin cfg1.N) :
    (iblk1 V c 6 t : Vec Ideal S1x128 .f32) = (V c main_v50 : S1x128.Idx → EReal) := by
  obtain ⟨-, -, -, -, -, -, -, -, -, -, -, -, e0, e1, -⟩ := block_indices t
  funext y
  unfold iblk1
  rw [View.read_apply]
  show V c main_v50 _ = V c main_v50 y
  congr 1
  funext a
  apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- The row of means likewise. -/
theorem mean_block (c : Dev nD) (t : Fin cfg1.N) :
    (iblk1 V c 7 t : Vec Ideal S1x128 .f32) = (V c main_v51 : S1x128.Idx → EReal) := by
  obtain ⟨-, -, -, -, -, -, -, -, -, -, -, -, -, -, e0, e1, -⟩ := block_indices t
  funext y
  unfold iblk1
  rw [View.read_apply]
  show V c main_v51 _ = V c main_v51 y
  congr 1
  funext a
  apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- The row of variances likewise. -/
theorem var_block (c : Dev nD) (t : Fin cfg1.N) :
    (iblk1 V c 8 t : Vec Ideal S1x128 .f32) = (V c main_v52 : S1x128.Idx → EReal) := by
  obtain ⟨-, -, -, -, -, -, -, -, -, -, -, -, -, -, -, -, e0, e1, -⟩ := block_indices t
  funext y
  unfold iblk1
  rw [View.read_apply]
  show V c main_v52 _ = V c main_v52 y
  congr 1
  funext a
  apply Fin.ext
  match a with
  | ⟨0, _⟩ => show win1_8.index t (0 : Fin 2) * 1 + 1 * (y 0).val = (y 0).val; omega
  | ⟨1, _⟩ => show win1_8.index t (1 : Fin 2) * 128 + 1 * (y 1).val = (y 1).val; omega

/-! ## What a point writes back -/

theorem zero_offsets : (![0, 0] : Fin 2 → Nat) = fun _ => 0 := funext fun a => by fin_cases a <;> rfl

/-- The hidden layer of the arrays as the region finds them. -/
abbrev layer (c : Dev nD) : Cert.Sage.Mat 50000 128 :=
  Cert.Sage.bnRelu (N := 50000) (K := 128) (C := 128) (V c main_v47) (V c main_v31) (V c main_arg7) (V c main_arg9)
    (fun j => V c main_v48 (ix2 (0 : Fin 1) j)) (fun j => V c main_v49 (ix2 (0 : Fin 1) j)) (fun j => V c main_v50 (ix2 (0 : Fin 1) j))
    (fun j => V c main_v51 (ix2 (0 : Fin 1) j)) (fun j => V c main_v52 (ix2 (0 : Fin 1) j))

/-- Point `t` writes back rows 2000·t … 2000·t + 1999 of the layer: at row `p`, column `q` of the block the body's value is
    the layer's formula at array row 2000·t + p, which is where the output's block puts that entry. -/
theorem written_back (c : Dev nD) (t : Fin cfg1.N) :
    (dat1 (F := Ideal) V c).flushed 9 t = ((cfg1.win 9).blk t).view.read (Elt Ideal) (layer V c) := by
  show (cfg1.win 9).cut (grid1.coords t) ((dat1 (F := Ideal) V c).after 9 t) = _
  rw [after1_9]
  unfold out1_9
  rw [View.canon_unit_zero zero_offsets]
  simp only [View.ld_unit_zero (S := S2000x128) zero_offsets, View.ld_unit_zero (S := S128x128) zero_offsets,
    View.ld_unit_zero (S := S1x128) zero_offsets]
  obtain ⟨-, -, -, -, -, -, -, -, -, -, -, -, -, -, -, -, -, -, e0, e1⟩ := block_indices t
  funext j
  have hp : (j 0).val < 2000 := (j 0).isLt
  have hq : (j 1).val < 128 := (j 1).isLt
  have hx : (cfg1.win 9).xinj (grid1.coords t) j = ix2 (⟨(j 0).val, hp⟩ : Fin 2000) (⟨(j 1).val, hq⟩ : Fin 128) :=
    funext fun a => by
      match a with
      | ⟨0, _⟩ => rfl
      | ⟨1, _⟩ => rfl
  have he : ((cfg1.win 9).blk t).view.emb j = ix2 (arrayRow t ⟨(j 0).val, hp⟩) (⟨(j 1).val, hq⟩ : Fin 128) :=
    funext fun a => Fin.ext (by
      match a with
      | ⟨0, _⟩ => show win1_9.index t (0 : Fin 2) * 2000 + 1 * (j 0).val = t.val * 2000 + (j 0).val; omega
      | ⟨1, _⟩ => show win1_9.index t (1 : Fin 2) * 128 + 1 * (j 1).val = (j 1).val; omega)
  rw [View.read_apply]
  show k1_pay1 (F := Ideal) (iblk1 V c 0 t) (iblk1 V c 1 t) (iblk1 V c 2 t) (iblk1 V c 4 t) (iblk1 V c 3 t) (iblk1 V c 5 t)
      (iblk1 V c 6 t) (iblk1 V c 7 t) (iblk1 V c 8 t) ((cfg1.win 9).xinj (grid1.coords t) j)
    = layer V c (((cfg1.win 9).blk t).view.emb j)
  rw [hx, he]
  refine (HiddenBlock.body1_apply (V c main_v47) (V c main_v31) _ _ _ _ _ _ _ _ _ _ _ (arrayRow t ⟨(j 0).val, hp⟩)
    (agg_block V c t _) (feat_block V c t _)).trans ?_
  rw [wl_block, wr_block, bias_block, gamma_block, beta_block, mean_block, var_block]
  rfl

/-! ## The row blocks tile the array -/

/-- An entry of the array is in point `t`'s block iff each coordinate is in the block's range on its axis. -/
theorem mem_block (t : Fin cfg1.N) (i : S50000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v53).slice (win1_9.rect t)).set ↔ _
  rw [View.set_slice_whole, Rect.mem_set_unit]
  exact Iff.rfl

/-- Every entry is written: row r is in the block of point r / 2000. -/
theorem covered (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, -, -, -, -, -, -, -, -, e0, e1⟩ := block_indices t
  refine ⟨t, flush1_9 t, ?_⟩
  rw [mem_block]
  intro a
  match a with
  | ⟨0, _⟩ =>
    show win1_9.index t (0 : Fin 2) * 2000 ≤ (i 0).val ∧ (i 0).val < win1_9.index t (0 : Fin 2) * 2000 + 2000
    omega
  | ⟨1, _⟩ =>
    show win1_9.index t (1 : Fin 2) * 128 ≤ (i 1).val ∧ (i 1).val < win1_9.index t (1 : Fin 2) * 128 + 128
    omega

/-! ## The array -/

/-- After the launch the output array holds the hidden layer of the arrays the region found. -/
theorem region1_array (c : Dev nD) :
    (dat1 (F := Ideal) V c).arrAt 9 cfg1.N
      = Cert.Sage.bnRelu (N := 50000) (K := 128) (C := 128) (V c main_v47) (V c main_v31) (V c main_arg7) (V c main_arg9)
          (fun j => V c main_v48 (ix2 (0 : Fin 1) j)) (fun j => V c main_v49 (ix2 (0 : Fin 1) j)) (fun j => V c main_v50 (ix2 (0 : Fin 1) j))
          (fun j => V c main_v51 (ix2 (0 : Fin 1) j)) (fun j => V c main_v52 (ix2 (0 : Fin 1) j)) :=
  (dat1 (F := Ideal) V c).arrAt_eq_of_cover 9 (layer V c) (fun t _ => written_back V c t) covered

end Cert.KernelIdeal.Region1

end
-- ==== Proof.LogSoftmaxBlock.lean ====
/-
  The last layer's kernel body, read at one entry of a block.

  The body takes a block of 2000 rows of the neighbour aggregate and of the node features (128 columns each), the two
  128 × 40 weight matrices and the bias row, and writes a 2000 × 40 block.  Its arithmetic is, per row p,
      h[q]   = (Σₖ agg[p,k]·Wl[k,q] + Σₖ x[p,k]·Wr[k,q]) + b[q]            (the bias is added last),
      m      = the maximum of h over the 40 channels, as a fold of max from −∞,
      out[q] = (h[q] − m) − log Σ_q' exp (h[q'] − m).
  At the extended reals the narrowing of the operands to 16 bits is the identity and each product is an exact sum,
  so the entry (p, q) of the written block is the log-softmax of the row h at q.

  The module splits the body in two: the affine vector h (two products and a row broadcast), and the log-softmax of
  an arbitrary 2000 × 40 vector (two reductions along the channels, each kept as a column and spread back over the
  channels).  Each is read at an index (p, q) given by its two coordinates.
-/
import proofs.«120692_j18992345383143_2_alg».proof.Proof.Gen.KernelIdeal.Skeleton
import proofs.«120692_j18992345383143_2_alg».proof.Proof.LayerSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region2

open Cert.KernelIdeal Cert.KernelIdeal.Gen Idealize.ShloMosaic Idealize.ShloMosaic.ValueIdx

/-! ## A column kept after a reduction: [a] viewed as [a, 1], and [a, 1] spread over b columns -/

/-- A vector of length `a` viewed as an `a × 1` column reads, at `(i, u)`, the vector at `i`: both have row-major
    position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread over `b` columns reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A product of a 2000 × 128 block with a 128 × 40 matrix, read at (p, q) -/

theorem lhs_row (i : S2000x40.Idx) (r : dot_S2000x128_S128x40_S2000x40_1_0_0_1_n_n.contr.Idx) :
    (dot_S2000x128_S128x40_S2000x40_1_0_0_1_n_n.lhsIdx i r 0).val = (i 0).val := by
  unfold DotDims.lhsIdx
  rw [dif_neg (show ¬(0 : Fin S2000x128.rank) ∈ dot_S2000x128_S128x40_S2000x40_1_0_0_1_n_n.lhsBatch by decide),
    dif_pos (show (0 : Fin S2000x128.rank) ∈ dot_S2000x128_S128x40_S2000x40_1_0_0_1_n_n.lhsNonContracting by decide)]
  rfl

theorem lhs_col (i : S2000x40.Idx) (r : dot_S2000x128_S128x40_S2000x40_1_0_0_1_n_n.contr.Idx) :
    (dot_S2000x128_S128x40_S2000x40_1_0_0_1_n_n.lhsIdx i r 1).val = (r ⟨0, by decide⟩).val :=
  dot_S2000x128_S128x40_S2000x40_1_0_0_1_n_n.lhsIdx_val_of_single rfl i r

theorem rhs_row (i : S2000x40.Idx) (r : dot_S2000x128_S128x40_S2000x40_1_0_0_1_n_n.contr.Idx) :
    (dot_S2000x128_S128x40_S2000x40_1_0_0_1_n_n.rhsIdx i r 0).val = (r ⟨0, by decide⟩).val :=
  dot_S2000x128_S128x40_S2000x40_1_0_0_1_n_n.rhsIdx_val_of_single rfl i r

theorem rhs_col (i : S2000x40.Idx) (r : dot_S2000x128_S128x40_S2000x40_1_0_0_1_n_n.contr.Idx) :
    (dot_S2000x128_S128x40_S2000x40_1_0_0_1_n_n.rhsIdx i r 1).val = (i 1).val := by
  unfold DotDims.rhsIdx
  rw [dif_neg (show ¬(1 : Fin S128x40.rank) ∈ dot_S2000x128_S128x40_S2000x40_1_0_0_1_n_n.rhsBatch by decide),
    dif_pos (show (1 : Fin S128x40.rank) ∈ dot_S2000x128_S128x40_S2000x40_1_0_0_1_n_n.rhsNonContracting by decide)]
  rfl

/-- The product accumulated onto zero, at (p, q): the sum over the 128 contracted coordinates of row p of the block
    times column q of the matrix. -/
theorem product_apply (A : FVec Ideal S2000x128 .bf16) (B : FVec Ideal S128x40 .bf16) (p : Fin 2000) (q : Fin 40) :
    matmul dot_S2000x128_S128x40_S2000x40_1_0_0_1_n_n none A B (constant (F := Ideal) S2000x40 .f32 0x00000000#32) (ix2 p q)
      = ∑ k : Fin 128, A (ix2 p k) * B (ix2 k q) := by
  simp only [matmul]
  rw [Ideal.matmul_constant_zero_apply,
    ← Equiv.sum_comp (contrEquiv1 dot_S2000x128_S128x40_S2000x40_1_0_0_1_n_n 128 rfl rfl).symm]
  refine Finset.sum_congr rfl fun k _ => ?_
  have hk := contrEquiv1_symm_val dot_S2000x128_S128x40_S2000x40_1_0_0_1_n_n 128 rfl rfl k
  have el : dot_S2000x128_S128x40_S2000x40_1_0_0_1_n_n.lhsIdx (ix2 p q)
      ((contrEquiv1 dot_S2000x128_S128x40_S2000x40_1_0_0_1_n_n 128 rfl rfl).symm k) = ix2 p k :=
    funext fun ax => Fin.ext (by
      match ax with
      | ⟨0, _⟩ => exact lhs_row _ _
      | ⟨1, _⟩ => exact (lhs_col _ _).trans hk)
  have er : dot_S2000x128_S128x40_S2000x40_1_0_0_1_n_n.rhsIdx (ix2 p q)
      ((contrEquiv1 dot_S2000x128_S128x40_S2000x40_1_0_0_1_n_n 128 rfl rfl).symm k) = ix2 k q :=
    funext fun ax => Fin.ext (by
      match ax with
      | ⟨0, _⟩ => exact (rhs_row _ _).trans hk
      | ⟨1, _⟩ => exact rhs_col _ _)
  rw [el, er]

/-! ## The affine vector -/

/-- The body's affine vector: the two products added, then the bias row added on every row. -/
def affineVec (v0 v3 : Vec Ideal S2000x128 .f32) (v6 v8 : Vec Ideal S128x40 .f32) (v13 : Vec Ideal S1x40 .f32) :
    FVec Ideal S2000x40 .f32 :=
  addf
    (addf
      (matmul dot_S2000x128_S128x40_S2000x40_1_0_0_1_n_n none
        (truncf .bf16 (shapeCast S2000x128 v0 shapeCasts_S2000x128_S2000x128) bitsLt_bf16_f32)
        (truncf .bf16 v6 bitsLt_bf16_f32) (constant S2000x40 .f32 0x00000000#32))
      (matmul dot_S2000x128_S128x40_S2000x40_1_0_0_1_n_n none
        (truncf .bf16 (shapeCast S2000x128 v3 shapeCasts_S2000x128_S2000x128) bitsLt_bf16_f32)
        (truncf .bf16 v8 bitsLt_bf16_f32) (constant S2000x40 .f32 0x00000000#32)))
    (broadcastTo S2000x40 (shapeCast S1x40 v13 shapeCasts_S1x40_S1x40) broadcasts_S1x40_S2000x40)

/-- The affine vector at (p, q): both products' sums, then the bias of channel q. -/
theorem affineVec_apply (v0 v3 : Vec Ideal S2000x128 .f32) (v6 v8 : Vec Ideal S128x40 .f32) (v13 : Vec Ideal S1x40 .f32)
    (p : Fin 2000) (q : Fin 40) :
    affineVec v0 v3 v6 v8 v13 (ix2 p q)
      = (∑ k : Fin 128, v0 (ix2 p k) * v6 (ix2 k q) + ∑ k : Fin 128, v3 (ix2 p k) * v8 (ix2 k q))
          + v13 (ix2 (0 : Fin 1) q) := by
  unfold affineVec
  rw [addf_apply, addf_apply, product_apply, product_apply, broadcastTo_1b_ab_apply, shapeCast_self, shapeCast_self,
    shapeCast_self]
  rfl

/-! ## The log-softmax of a 2000 × 40 vector along its channels -/

/-- Each row's maximum over the 40 channels (a fold of max from the word of −∞), kept as a column and spread back
    over the channels. -/
def rowMaxCol (H : FVec Ideal S2000x40 .f32) : FVec Ideal S2000x40 .f32 :=
  broadcastTo S2000x40
    (shapeCast S2000x1 (multiReduction .maximumf [1] S2000 H 0xFF800000#32 reduces_S2000x40_S2000 (.inl rfl) rfl)
      shapeCasts_S2000_S2000x1)
    broadcasts_S2000x1_S2000x40

/-- Each row's sum over the 40 channels (from the zero word), kept as a column. -/
def rowSumCol (E : FVec Ideal S2000x40 .f32) : FVec Ideal S2000x1 .f32 :=
  shapeCast S2000x1 (multiReduction .add [1] S2000 E 0x00000000#32 reduces_S2000x40_S2000 (.inl rfl) rfl)
    shapeCasts_S2000_S2000x1

/-- The body's last operations on the affine vector `H`: subtract each row's maximum, then the logarithm of the row's
    sum of exponentials of those differences. -/
def logSoftmaxVec (H : FVec Ideal S2000x40 .f32) : FVec Ideal S2000x40 .f32 :=
  subf (subf H (rowMaxCol H))
    (broadcastTo S2000x40 (Idealize.ShloMosaic.log (rowSumCol (Idealize.ShloMosaic.exp (subf H (rowMaxCol H)))))
      broadcasts_S2000x1_S2000x40)

/-- The index of a 2000 × 40 vector that lies over row `p` of the reduced vector with channel `k` put back is (p, k). -/
theorem lift_row (h : S2000x40.Reduces [1] S2000) (p : Fin 2000) (k : Fin 40) : h.lift (ix1 p) k = ix2 p k :=
  funext fun ax => Fin.ext (by
    match ax with
    | ⟨0, _⟩ => rfl
    | ⟨1, _⟩ => rfl)

/-- The spread row maximum at (p, q) is the fold of max from −∞ over row p. -/
theorem rowMaxCol_apply (H : FVec Ideal S2000x40 .f32) (p : Fin 2000) (q : Fin 40) :
    rowMaxCol H (ix2 p q) = Cert.Sage.rowMax (fun q' : Fin 40 => H (ix2 p q')) := by
  unfold rowMaxCol
  rw [broadcastTo_a1_ab_apply, shapeCast_a_a1_apply]
  refine (Ideal.multiReduction_maximumf_single H 0xFF800000#32 reduces_S2000x40_S2000 (.inl rfl) rfl (ix1 p)).trans ?_
  show (Finset.univ : Finset (Fin 40)).fold max (Ideal.ofBits .f32 0xFF800000#32)
      (fun k : Fin 40 => H (reduces_S2000x40_S2000.lift (ix1 p) k)) = _
  unfold Cert.Sage.rowMax
  exact congrArg (fun f : Fin 40 → EReal => (Finset.univ : Finset (Fin 40)).fold max Cert.Sage.negInfWord f)
    (funext fun k => congrArg H (lift_row _ p k))

/-- The kept row sum at (p, u) is the sum over the 40 channels of row p. -/
theorem rowSumCol_apply (E : FVec Ideal S2000x40 .f32) (p : Fin 2000) (u : Fin 1) :
    rowSumCol E (ix2 p u) = ∑ q' : Fin 40, E (ix2 p q') := by
  unfold rowSumCol
  rw [shapeCast_a_a1_apply]
  refine (Ideal.multiReduction_add_single E 0x00000000#32 reduces_S2000x40_S2000 (.inl rfl) rfl (ix1 p)).trans ?_
  show ∑ k : Fin 40, E (reduces_S2000x40_S2000.lift (ix1 p) k) = _
  exact Finset.sum_congr rfl fun k _ => congrArg E (lift_row _ p k)

/-- The log-softmax vector at (p, q) is the log-softmax of row p of `H` at channel q. -/
theorem logSoftmaxVec_apply (H : FVec Ideal S2000x40 .f32) (p : Fin 2000) (q : Fin 40) :
    logSoftmaxVec H (ix2 p q) = Cert.Sage.logSoftmaxRow (fun q' : Fin 40 => H (ix2 p q')) q := by
  unfold logSoftmaxVec Cert.Sage.logSoftmaxRow
  rw [subf_apply, subf_apply, rowMaxCol_apply, broadcastTo_a1_ab_apply]
  show _ - Ideal.log (rowSumCol (Idealize.ShloMosaic.exp (subf H (rowMaxCol H))) (ix2 p (0 : Fin 1))) = _
  rw [rowSumCol_apply]
  refine congrArg (fun s => _ - Ideal.log s) (Finset.sum_congr rfl fun q' _ => ?_)
  show Ideal.exp (H (ix2 p q') - rowMaxCol H (ix2 p q')) = _
  rw [rowMaxCol_apply]

/-! ## The body's payload -/

/-- The payload is the log-softmax vector of the affine vector: the printed sequence of operations, regrouped. -/
theorem payload_eq (v0 v3 : Vec Ideal S2000x128 .f32) (v6 v8 : Vec Ideal S128x40 .f32) (v13 : Vec Ideal S1x40 .f32) :
    k2_pay1 (F := Ideal) v0 v3 v6 v8 v13 = logSoftmaxVec (affineVec v0 v3 v6 v8 v13) := rfl

/-- The affine part of the block at row p, channel q, with the bias added last. -/
def blockAffine (v0 v3 : Vec Ideal S2000x128 .f32) (v6 v8 : Vec Ideal S128x40 .f32) (v13 : Vec Ideal S1x40 .f32)
    (p : Fin 2000) (q : Fin 40) : EReal :=
  (∑ k : Fin 128, v0 (ix2 p k) * v6 (ix2 k q) + ∑ k : Fin 128, v3 (ix2 p k) * v8 (ix2 k q)) + v13 (ix2 (0 : Fin 1) q)

/-- THE BODY AT AN ENTRY: the written block at (p, q) is the log-softmax, at channel q, of the affine row p. -/
theorem payload_apply (v0 v3 : Vec Ideal S2000x128 .f32) (v6 v8 : Vec Ideal S128x40 .f32) (v13 : Vec Ideal S1x40 .f32)
    (p : Fin 2000) (q : Fin 40) :
    k2_pay1 (F := Ideal) v0 v3 v6 v8 v13 (ix2 p q)
      = Cert.Sage.logSoftmaxRow (fun q' : Fin 40 => blockAffine v0 v3 v6 v8 v13 p q') q := by
  rw [payload_eq, logSoftmaxVec_apply]
  exact congrArg (fun f => Cert.Sage.logSoftmaxRow f q) (funext fun q' => affineVec_apply v0 v3 v6 v8 v13 p q')

end Cert.KernelIdeal.Region2

end
-- ==== Proof.Region2.lean ====
/-
  The last layer's region: what the pipeline leaves in the output array.

  The region runs the log-softmax body at 25 grid points.  At point t the body reads rows 2000·t … 2000·t + 1999 of
  the neighbour aggregate and of the node features, the two whole weight matrices and the whole bias row, and its
  2000 × 40 result is written back to the same rows of the output array.  Since entry (p, q) of the body's result
  depends only on row p of its two row blocks, it is entry (2000·t + p, q) of the layer computed on the whole
  arrays; the 25 row blocks tile the 50000 rows, so the output array ends as the layer of the region's inputs.
-/
import proofs.«120692_j18992345383143_2_alg».proof.Proof.Gen.KernelIdeal.Frame
import proofs.«120692_j18992345383143_2_alg».proof.Proof.LayerSpec
import proofs.«120692_j18992345383143_2_alg».proof.Proof.LogSoftmaxBlock
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## One entry of the body's result against the layer on whole arrays -/

/-- If row p of the two row blocks is row r of the whole arrays, and the weight and bias blocks are the whole
    matrices, then entry (p, q) of the body's result is entry (r, q) of the layer.  The body adds the bias after
    the second product, the layer between the two products: addition on the extended reals commutes. -/
theorem block_entry (A X : Cert.Sage.Mat 50000 128) (Wl Wr : Cert.Sage.Mat 128 40) (b : Cert.Sage.Mat 1 40)
    (v0 v3 : Vec Ideal S2000x128 .f32) (v6 v8 : Vec Ideal S128x40 .f32) (v13 : Vec Ideal S1x40 .f32)
    (r : Fin 50000) (p : Fin 2000) (q : Fin 40)
    (h0 : ∀ k : Fin 128, v0 (ix2 p k) = A (ix2 r k)) (h3 : ∀ k : Fin 128, v3 (ix2 p k) = X (ix2 r k))
    (h6 : ∀ (k : Fin 128) (q' : Fin 40), v6 (ix2 k q') = Wl (ix2 k q'))
    (h8 : ∀ (k : Fin 128) (q' : Fin 40), v8 (ix2 k q') = Wr (ix2 k q'))
    (h13 : ∀ q' : Fin 40, v13 (ix2 (0 : Fin 1) q') = b (ix2 (0 : Fin 1) q')) :
    k2_pay1 (F := Ideal) v0 v3 v6 v8 v13 (ix2 p q)
      = Cert.Sage.logSoftmaxLayer A X Wl Wr (fun j => b (ix2 (0 : Fin 1) j)) (ix2 r q) := by
  rw [payload_apply, Cert.Sage.logSoftmaxLayer_apply]
  unfold Cert.Sage.logSoftmaxAt
  refine congrArg (fun f => Cert.Sage.logSoftmaxRow f q) (funext fun q' => ?_)
  unfold blockAffine Cert.Sage.affineAt
  simp only [h0, h3, h6, h8, h13]
  exact Cert.Sage.affine_bias_last _ _ _

/-! ## The blocks of the region's windows -/

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the 25 grid points: the two row-tiled inputs and the output sit at block (t, 0), the
    weights and the bias at block (0, 0). -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The layer on the region's input arrays. -/
abbrev lastLayer (c : Dev nD) : Cert.Sage.Mat 50000 40 :=
  Cert.Sage.logSoftmaxLayer (N := 50000) (K := 128) (C := 40) (V c main_v69) (V c main_v53) (V c main_arg10)
    (V c main_arg12) (fun j => V c main_v70 (ix2 (0 : Fin 1) j))

/-- WHAT POINT t WRITES BACK is rows 2000·t … 2000·t + 1999 of the layer on the region's input arrays. -/
theorem written_block (c : Dev nD) (t : Fin cfg2.N) :
    (dat2 (F := Ideal) V c).flushed 5 t = ((cfg2.win 5).blk t).view.read (Elt Ideal) (lastLayer V c) := by
  show (cfg2.win 5).cut (grid2.coords t) ((dat2 (F := Ideal) V c).after 5 t) = _
  rw [after2_5]
  unfold out2_5
  rw [View.canon_unit_zero zero_offsets]
  simp only [View.ld_unit_zero (S := S2000x128) zero_offsets, View.ld_unit_zero (S := S128x40) zero_offsets,
    View.ld_unit_zero (S := S1x40) zero_offsets]
  obtain ⟨e00, e01, e10, e11, e20, e21, e30, e31, e40, e41, e50, e51⟩ := block_indices t
  have ht : t.val < 25 := Nat.lt_of_lt_of_eq t.isLt (show cfg2.N = 25 from N_2)
  funext j
  obtain ⟨p, q, rfl⟩ : ∃ (p : Fin 2000) (q : Fin 40), j = ix2 p q := ⟨j 0, j 1, eq_ix2 j⟩
  have hp : p.val < 2000 := p.isLt
  show k2_pay1 (F := Ideal) (iblk2 V c 0 t) (iblk2 V c 1 t) (iblk2 V c 2 t) (iblk2 V c 4 t) (iblk2 V c 3 t) (ix2 p q)
    = lastLayer V c (((cfg2.win 5).blk t).view.emb (ix2 p q))
  have hemb : ((cfg2.win 5).blk t).view.emb (ix2 p q) = ix2 (⟨t.val * 2000 + p.val, by omega⟩ : Fin 50000) q := by
    funext a; apply Fin.ext
    match a with
    | ⟨0, _⟩ => show win2_5.index t (0 : Fin 2) * 2000 + 1 * p.val = t.val * 2000 + p.val; omega
    | ⟨1, _⟩ => show win2_5.index t (1 : Fin 2) * 40 + 1 * q.val = q.val; omega
  rw [hemb]
  refine block_entry (V c main_v69) (V c main_v53) (V c main_arg10) (V c main_arg12) (V c main_v70) _ _ _ _ _
    ⟨t.val * 2000 + p.val, by omega⟩ p q ?_ ?_ ?_ ?_ ?_
  · intro k
    show V c main_v69 (((cfg2.win 0).blk t).view.emb (ix2 p k)) = V c main_v69 (ix2 _ k)
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  · intro k
    show V c main_v53 (((cfg2.win 1).blk t).view.emb (ix2 p k)) = V c main_v53 (ix2 _ k)
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 128 + 1 * k.val = k.val; omega
  · intro k q'
    show V c main_arg10 (((cfg2.win 2).blk t).view.emb (ix2 k q')) = V c main_arg10 (ix2 k q')
    refine congrArg _ (funext fun a => Fin.ext ?_)
    match a with
    | ⟨0, _⟩ => show win2_2.index t (0 : Fin 2) * 128 + 1 * k.val = k.val; omega
    | ⟨1, _⟩ => show win2_2.index t (1 : Fin 2) * 40 + 1 * q'.val = q'.val; omega
  · intro k q'
    show V c main_arg12 (((cfg2.win 4).blk t).view.emb (ix2 k q')) = V c main_arg12 (ix2 k q')
    refine congrArg _ (funext fun a => Fin.ext ?_)
    match a with
    | ⟨0, _⟩ => show win2_4.index t (0 : Fin 2) * 128 + 1 * k.val = k.val; omega
    | ⟨1, _⟩ => show win2_4.index t (1 : Fin 2) * 40 + 1 * q'.val = q'.val; omega
  · intro q'
    show V c main_v70 (((cfg2.win 3).blk t).view.emb (ix2 (0 : Fin 1) q')) = V c main_v70 (ix2 (0 : Fin 1) q')
    refine congrArg _ (funext fun a => Fin.ext ?_)
    match a with
    | ⟨0, _⟩ => show win2_3.index t (0 : Fin 2) * 1 + 1 * (0 : Fin 1).val = (0 : Fin 1).val; omega
    | ⟨1, _⟩ => show win2_3.index t (1 : Fin 2) * 40 + 1 * q'.val = q'.val; omega

/-! ## The 25 row blocks tile the output array -/

/-- An index of the output array is in point t's block iff each coordinate is in the block's range on its axis. -/
theorem mem_block (t : Fin cfg2.N) (i : S50000x40.Idx) :
    i ∈ ((cfg2.win 5).blk t).view.set ↔ ∀ a : Fin 2, win2_5.index t a * S2000x40.size a ≤ (i a).val
      ∧ (i a).val < win2_5.index t a * S2000x40.size a + S2000x40.size a := by
  show i ∈ ((View.whole main_v71).slice (win2_5.rect t)).set ↔ _
  rw [View.set_slice_whole, Rect.mem_set_unit]
  exact Iff.rfl

/-- Every index (r, q) of the output array is written back by the point r / 2000. -/
theorem covered (i : S50000x40.Idx) :
    ∃ t : Fin cfg2.N, (cfg2.win 5).flush t = true ∧ i ∈ ((cfg2.win 5).blk t).view.set := by
  have hi0 : (i 0).val < 50000 := (i 0).isLt
  have hi1 : (i 1).val < 40 := (i 1).isLt
  obtain ⟨t, ht⟩ : ∃ t : Fin cfg2.N, t.val = (i 0).val / 2000 :=
    ⟨⟨(i 0).val / 2000, by rw [show cfg2.N = 25 from N_2]; omega⟩, rfl⟩
  obtain ⟨-, -, -, -, -, -, -, -, -, -, e50, e51⟩ := block_indices t
  refine ⟨t, flush2_5 t, ?_⟩
  rw [mem_block]
  intro a
  match a with
  | ⟨0, _⟩ =>
    show win2_5.index t (0 : Fin 2) * 2000 ≤ (i 0).val ∧ (i 0).val < win2_5.index t (0 : Fin 2) * 2000 + 2000
    omega
  | ⟨1, _⟩ =>
    show win2_5.index t (1 : Fin 2) * 40 ≤ (i 1).val ∧ (i 1).val < win2_5.index t (1 : Fin 2) * 40 + 40
    omega

/-! ## The array -/

/-- THE OUTPUT ARRAY after the region is the last layer of the region's input arrays. -/
theorem region2_array (c : Dev nD) :
    (dat2 (F := Ideal) V c).arrAt 5 cfg2.N
      = Cert.Sage.logSoftmaxLayer (N := 50000) (K := 128) (C := 40) (V c main_v69) (V c main_v53) (V c main_arg10) (V c main_arg12)
          (fun j => V c main_v70 (ix2 (0 : Fin 1) j)) :=
  (dat2 (F := Ideal) V c).arrAt_eq_of_cover 5 (lastLayer V c) (fun t _ => written_block V c t) covered

end Cert.KernelIdeal.Region2

end
-- ==== Proof.Network.lean ====
/-
  The network as one function of its arguments, and the kernel program's result.

  Three layers, each fed by the neighbour aggregate of the layer before: the first hidden layer from the input
  features, the second from the first (both with the given edge weights), and the output from the second with unit
  weights.  The kernel program computes exactly this: each launch's result array is its layer of what the launch
  finds (its aggregate and its features, read from the chain of boundary contents), the bias and batch-norm vectors
  reaching the launches re-laid as one-row matrices, which read back as the vectors.
-/
import proofs.«120692_j18992345383143_2_alg».proof.Proof.HostChain
import proofs.«120692_j18992345383143_2_alg».proof.Proof.LayerSpec
import proofs.«120692_j18992345383143_2_alg».proof.Proof.Region0
import proofs.«120692_j18992345383143_2_alg».proof.Proof.Region1
import proofs.«120692_j18992345383143_2_alg».proof.Proof.Region2
import Idealize.ShloMosaic.Lib.ValueLayout

set_option maxRecDepth 16384

noncomputable section

namespace Cert.KernelIdeal.Network

open Cert.KernelIdeal Cert.KernelIdeal.Gen Cert.KernelIdeal.HostChain
open Idealize.ShloMosaic Idealize.ShloMosaic.TcCoe Idealize.ShloMosaic.ValueIdx Idealize.SL.Sem

/-- The first hidden layer as a function of the arguments: the aggregate of the input features, then the layer. -/
def hidden1 (a0 : (⟨S50000x128, .f32⟩ : BufTy).Contents (Elt Ideal)) (a1 : (⟨S2x800000, .i32⟩ : BufTy).Contents (Elt Ideal)) (a3 : (⟨S800000, .f32⟩ : BufTy).Contents (Elt Ideal))
    (a4 : (⟨S128x128, .f32⟩ : BufTy).Contents (Elt Ideal)) (a5 : (⟨S128, .f32⟩ : BufTy).Contents (Elt Ideal)) (a6 : (⟨S128x128, .f32⟩ : BufTy).Contents (Elt Ideal)) (a13 a14 a15 a16 : (⟨S128, .f32⟩ : BufTy).Contents (Elt Ideal)) : (⟨S50000x128, .f32⟩ : BufTy).Contents (Elt Ideal) :=
  Cert.Sage.bnRelu (N := 50000) (K := 128) (C := 128)
    (aggregate a0 a3 (edgeSrc a1) (edgeDst a1) (inDegree (edgeDst a1))) a0 a4 a6 (fun j => a5 (ix1 j)) (fun j => a13 (ix1 j)) (fun j => a14 (ix1 j)) (fun j => a15 (ix1 j)) (fun j => a16 (ix1 j))

/-- The second hidden layer: the aggregate of the first hidden layer, with the same edge weights, then the layer. -/
def hidden2 (a0 : (⟨S50000x128, .f32⟩ : BufTy).Contents (Elt Ideal)) (a1 : (⟨S2x800000, .i32⟩ : BufTy).Contents (Elt Ideal)) (a3 : (⟨S800000, .f32⟩ : BufTy).Contents (Elt Ideal))
    (a4 : (⟨S128x128, .f32⟩ : BufTy).Contents (Elt Ideal)) (a5 : (⟨S128, .f32⟩ : BufTy).Contents (Elt Ideal)) (a6 a7 : (⟨S128x128, .f32⟩ : BufTy).Contents (Elt Ideal)) (a8 : (⟨S128, .f32⟩ : BufTy).Contents (Elt Ideal)) (a9 : (⟨S128x128, .f32⟩ : BufTy).Contents (Elt Ideal))
    (a13 a14 a15 a16 a17 a18 a19 a20 : (⟨S128, .f32⟩ : BufTy).Contents (Elt Ideal)) : (⟨S50000x128, .f32⟩ : BufTy).Contents (Elt Ideal) :=
  Cert.Sage.bnRelu (N := 50000) (K := 128) (C := 128)
    (aggregate (hidden1 a0 a1 a3 a4 a5 a6 a13 a14 a15 a16) a3 (edgeSrc a1) (edgeDst a1) (inDegree (edgeDst a1))) (hidden1 a0 a1 a3 a4 a5 a6 a13 a14 a15 a16) a7 a9 (fun j => a8 (ix1 j)) (fun j => a17 (ix1 j)) (fun j => a18 (ix1 j)) (fun j => a19 (ix1 j)) (fun j => a20 (ix1 j))

/-- The network's output: the aggregate of the second hidden layer with unit weights, then the log-softmax layer. -/
def output (a0 : (⟨S50000x128, .f32⟩ : BufTy).Contents (Elt Ideal)) (a1 : (⟨S2x800000, .i32⟩ : BufTy).Contents (Elt Ideal)) (a3 : (⟨S800000, .f32⟩ : BufTy).Contents (Elt Ideal))
    (a4 : (⟨S128x128, .f32⟩ : BufTy).Contents (Elt Ideal)) (a5 : (⟨S128, .f32⟩ : BufTy).Contents (Elt Ideal)) (a6 a7 : (⟨S128x128, .f32⟩ : BufTy).Contents (Elt Ideal)) (a8 : (⟨S128, .f32⟩ : BufTy).Contents (Elt Ideal)) (a9 : (⟨S128x128, .f32⟩ : BufTy).Contents (Elt Ideal))
    (a10 : (⟨S128x40, .f32⟩ : BufTy).Contents (Elt Ideal)) (a11 : (⟨S40, .f32⟩ : BufTy).Contents (Elt Ideal)) (a12 : (⟨S128x40, .f32⟩ : BufTy).Contents (Elt Ideal))
    (a13 a14 a15 a16 a17 a18 a19 a20 : (⟨S128, .f32⟩ : BufTy).Contents (Elt Ideal)) : (⟨S50000x40, .f32⟩ : BufTy).Contents (Elt Ideal) :=
  Cert.Sage.logSoftmaxLayer (N := 50000) (K := 128) (C := 40)
    (aggregate (hidden2 a0 a1 a3 a4 a5 a6 a7 a8 a9 a13 a14 a15 a16 a17 a18 a19 a20) (unitWeights (F := Ideal)) (edgeSrc a1) (edgeDst a1) (inDegree (edgeDst a1))) (hidden2 a0 a1 a3 a4 a5 a6 a7 a8 a9 a13 a14 a15 a16 a17 a18 a19 a20) a10 a12 (fun j => a11 (ix1 j))

/-! ## A launch's array from what its windows read

Stated for arbitrary buffer contents, so that the chain of boundary contents is only ever handed over whole. -/

theorem first_launch_of (V : (c : Dev nD) → (b : Ref sig .tc) → Buf (Elt Ideal) ((c : Thread nD τ).loc b)) (c : Dev nD)
    {A X : (⟨S50000x128, .f32⟩ : BufTy).Contents (Elt Ideal)} {Wl Wr : (⟨S128x128, .f32⟩ : BufTy).Contents (Elt Ideal)} {b g be mu va : (⟨S1x128, .f32⟩ : BufTy).Contents (Elt Ideal)}
    (hA : V c main_v25 = A) (hX : V c main_arg0 = X) (hWl : V c main_arg4 = Wl) (hWr : V c main_arg6 = Wr)
    (hb : V c main_v26 = b) (hg : V c main_v27 = g) (hbe : V c main_v28 = be) (hmu : V c main_v29 = mu) (hva : V c main_v30 = va) :
    (dat0 (F := Ideal) V c).arrAt 9 cfg0.N
      = Cert.Sage.bnRelu (N := 50000) (K := 128) (C := 128) A X Wl Wr (fun j => b (ix2 (0 : Fin 1) j)) (fun j => g (ix2 (0 : Fin 1) j)) (fun j => be (ix2 (0 : Fin 1) j)) (fun j => mu (ix2 (0 : Fin 1) j)) (fun j => va (ix2 (0 : Fin 1) j)) := by
  rw [Region0.region0_array V c, hA, hX, hWl, hWr, hb, hg, hbe, hmu, hva]

theorem second_launch_of (V : (c : Dev nD) → (b : Ref sig .tc) → Buf (Elt Ideal) ((c : Thread nD τ).loc b)) (c : Dev nD)
    {A X : (⟨S50000x128, .f32⟩ : BufTy).Contents (Elt Ideal)} {Wl Wr : (⟨S128x128, .f32⟩ : BufTy).Contents (Elt Ideal)} {b g be mu va : (⟨S1x128, .f32⟩ : BufTy).Contents (Elt Ideal)}
    (hA : V c main_v47 = A) (hX : V c main_v31 = X) (hWl : V c main_arg7 = Wl) (hWr : V c main_arg9 = Wr)
    (hb : V c main_v48 = b) (hg : V c main_v49 = g) (hbe : V c main_v50 = be) (hmu : V c main_v51 = mu) (hva : V c main_v52 = va) :
    (dat1 (F := Ideal) V c).arrAt 9 cfg1.N
      = Cert.Sage.bnRelu (N := 50000) (K := 128) (C := 128) A X Wl Wr (fun j => b (ix2 (0 : Fin 1) j)) (fun j => g (ix2 (0 : Fin 1) j)) (fun j => be (ix2 (0 : Fin 1) j)) (fun j => mu (ix2 (0 : Fin 1) j)) (fun j => va (ix2 (0 : Fin 1) j)) := by
  rw [Region1.region1_array V c, hA, hX, hWl, hWr, hb, hg, hbe, hmu, hva]

theorem third_launch_of (V : (c : Dev nD) → (b : Ref sig .tc) → Buf (Elt Ideal) ((c : Thread nD τ).loc b)) (c : Dev nD)
    {A X : (⟨S50000x128, .f32⟩ : BufTy).Contents (Elt Ideal)} {Wl Wr : (⟨S128x40, .f32⟩ : BufTy).Contents (Elt Ideal)} {b : (⟨S1x40, .f32⟩ : BufTy).Contents (Elt Ideal)}
    (hA : V c main_v69 = A) (hX : V c main_v53 = X) (hWl : V c main_arg10 = Wl) (hWr : V c main_arg12 = Wr) (hb : V c main_v70 = b) :
    (dat2 (F := Ideal) V c).arrAt 5 cfg2.N
      = Cert.Sage.logSoftmaxLayer (N := 50000) (K := 128) (C := 40) A X Wl Wr (fun j => b (ix2 (0 : Fin 1) j)) := by
  rw [Region2.region2_array V c, hA, hX, hWl, hWr, hb]

variable (m : (ℓ : Loc nD τ sig) → Buf (Elt Ideal) ℓ) (ρ : Dev nD → PrngReg) (c : Dev nD)

/-- After the first launch its result buffer holds the first hidden layer of the arguments. -/
theorem first_hidden : W2 m ρ c (Proc.devRef .tc main_v31) = hidden1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16)) :=
  (second_features m ρ c).trans ((first_launch_of (V1 m ρ) c (first_window_aggregate m ρ c) (first_window_arg0 m ρ c)
    (first_window_arg4 m ρ c) (first_window_arg6 m ρ c) (first_window_v26 m ρ c) (first_window_v27 m ρ c)
    (first_window_v28 m ρ c) (first_window_v29 m ρ c) (first_window_v30 m ρ c)).trans (by
      simp only [shapeCast_a_1a_apply]
      rfl))

/-- After the second launch its result buffer holds the second hidden layer of the arguments. -/
theorem second_hidden : W4 m ρ c (Proc.devRef .tc main_v53) = hidden2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  (third_features m ρ c).trans ((second_launch_of (V3 m ρ) c (second_aggregate m ρ c) (second_self m ρ c)
    (second_arg7 m ρ c) (second_arg9 m ρ c) (second_row_v48 m ρ c) (second_row_v49 m ρ c)
    (second_row_v50 m ρ c) (second_row_v51 m ρ c) (second_row_v52 m ρ c)).trans (by
      rw [first_hidden m ρ c]
      simp only [shapeCast_a_1a_apply]
      rfl))

/-- The kernel program's result array is the network's output of the launch arguments. -/
theorem kernel_value : W6 m ρ c (Proc.devRef .tc main_v71) = output (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  (result_array m ρ c).trans ((third_launch_of (V5 m ρ) c (third_aggregate m ρ c) (third_self m ρ c)
    (third_arg10 m ρ c) (third_arg12 m ρ c) (third_row_v70 m ρ c)).trans (by
      rw [second_hidden m ρ c]
      simp only [shapeCast_a_1a_apply]
      rfl))

end Cert.KernelIdeal.Network

end
-- ==== Proof.ReferenceRun.lean ====
/-
  The reference program's run, read layer by layer.

  The reference is one straight line of host operations: the first hidden layer's (through the first rectifier), the
  second hidden layer's (through the second rectifier), and the last layer's (through the log-softmax).  Its run is
  stated over that division: every weakly fair execution terminates without a fault, and every buffer ends at the
  third list's results over the second list's results over the first list's results over the launch contents.  Read
  that way, no composed term of all three layers is ever formed; each layer's buffers are read from the layer before.
-/
import proofs.«120692_j18992345383143_2_alg».proof.Proof.Gen.ReferenceIdeal
import Idealize.ShloMosaic.Lib.StableHlo.Run
import Idealize.ShloMosaic.Lib.Pipeline.Frame

noncomputable section

namespace Cert.ReferenceIdeal.Layered

open Cert.ReferenceIdeal Cert.ReferenceIdeal.Gen Idealize.ShloMosaic Idealize.ShloMosaic.TcCoe Idealize.SL.Sem Idealize.ShloMosaic.StableHlo

variable {F : FTy → Type} [FloatOps F]

/-- The operations of the first hidden layer, in order, through its rectifier (the result is `main_v45`). -/
abbrev opsHidden1 : List (HloOp τ sig (Elt F)) :=
  [
    unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg3 main_v11 (broadcastInDim S800000x1 ![0] bcast_S800000_S800000x1_0 : (⟨S800000, .f32⟩ : BufTy).Contents (Elt F) → (⟨S800000x1, .f32⟩ : BufTy).Contents (Elt F)),
    unary main_v11 main_v12 (broadcastInDim S800000x128 ![0, 1] bcast_S800000x1_S800000x128_0_1 : (⟨S800000x1, .f32⟩ : BufTy).Contents (Elt F) → (⟨S800000x128, .f32⟩ : BufTy).Contents (Elt F)),
    binary main_v10 main_v12 main_v13 (mulf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v14 (broadcastInDim S50000x128 ![] bcast_S_S50000x128 : (⟨S_, .f32⟩ : BufTy).Contents (Elt F) → (⟨S50000x128, .f32⟩ : BufTy).Contents (Elt F)),
    unary main_v3 main_v15 (broadcastInDim S800000x1 ![0] bcast_S800000_S800000x1_0 : (⟨S800000, .i32⟩ : BufTy).Contents (Elt F) → (⟨S800000x1, .i32⟩ : BufTy).Contents (Elt F)),
    ternary main_v14 main_v15 main_v13 main_v16 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v17 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v18 (broadcastInDim S50000 ![] bcast_S_S50000 : (⟨S_, .f32⟩ : BufTy).Contents (Elt F) → (⟨S50000, .f32⟩ : BufTy).Contents (Elt F)),
    unary main_v3 main_v19 (broadcastInDim S800000x1 ![0] bcast_S800000_S800000x1_0 : (⟨S800000, .i32⟩ : BufTy).Contents (Elt F) → (⟨S800000x1, .i32⟩ : BufTy).Contents (Elt F)),
    ternary main_v18 main_v19 main_v17 main_v20 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v21 (broadcastInDim S50000 ![] bcast_S_S50000 : (⟨S_, .f32⟩ : BufTy).Contents (Elt F) → (⟨S50000, .f32⟩ : BufTy).Contents (Elt F)),
    binary main_v20 main_v21 main_v22 (maximumf : (⟨S50000, .f32⟩ : BufTy).Contents (Elt F) → (⟨S50000, .f32⟩ : BufTy).Contents (Elt F) → (⟨S50000, .f32⟩ : BufTy).Contents (Elt F)),
    unary main_v22 main_v23 (broadcastInDim S50000x1 ![0] bcast_S50000_S50000x1_0 : (⟨S50000, .f32⟩ : BufTy).Contents (Elt F) → (⟨S50000x1, .f32⟩ : BufTy).Contents (Elt F)),
    unary main_v23 main_v24 (broadcastInDim S50000x128 ![0, 1] bcast_S50000x1_S50000x128_0_1 : (⟨S50000x1, .f32⟩ : BufTy).Contents (Elt F) → (⟨S50000x128, .f32⟩ : BufTy).Contents (Elt F)),
    binary main_v16 main_v24 main_v25 (Host.divf : (⟨S50000x128, .f32⟩ : BufTy).Contents (Elt F) → (⟨S50000x128, .f32⟩ : BufTy).Contents (Elt F) → (⟨S50000x128, .f32⟩ : BufTy).Contents (Elt F)),
    binary main_v25 main_arg4 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v27 (broadcastInDim S1x128 ![1] bcast_S128_S1x128_1 : (⟨S128, .f32⟩ : BufTy).Contents (Elt F) → (⟨S1x128, .f32⟩ : BufTy).Contents (Elt F)),
    unary main_v27 main_v28 (broadcastInDim S50000x128 ![0, 1] bcast_S1x128_S50000x128_0_1 : (⟨S1x128, .f32⟩ : BufTy).Contents (Elt F) → (⟨S50000x128, .f32⟩ : BufTy).Contents (Elt F)),
    binary main_v26 main_v28 main_v29 (addf : (⟨S50000x128, .f32⟩ : BufTy).Contents (Elt F) → (⟨S50000x128, .f32⟩ : BufTy).Contents (Elt F) → (⟨S50000x128, .f32⟩ : BufTy).Contents (Elt F)),
    binary main_arg0 main_arg6 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v29 main_v30 main_v31 (addf : (⟨S50000x128, .f32⟩ : BufTy).Contents (Elt F) → (⟨S50000x128, .f32⟩ : BufTy).Contents (Elt F) → (⟨S50000x128, .f32⟩ : BufTy).Contents (Elt F)),
    unary main_arg15 main_v32 (broadcastInDim S1x128 ![1] bcast_S128_S1x128_1 : (⟨S128, .f32⟩ : BufTy).Contents (Elt F) → (⟨S1x128, .f32⟩ : BufTy).Contents (Elt F)),
    unary main_v32 main_v33 (broadcastInDim S50000x128 ![0, 1] bcast_S1x128_S50000x128_0_1 : (⟨S1x128, .f32⟩ : BufTy).Contents (Elt F) → (⟨S50000x128, .f32⟩ : BufTy).Contents (Elt F)),
    binary main_v31 main_v33 main_v34 (subf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x3727C5AC#32),
    unary main_cst_4 main_v35 (broadcastInDim S128 ![] bcast_S_S128 : (⟨S_, .f32⟩ : BufTy).Contents (Elt F) → (⟨S128, .f32⟩ : BufTy).Contents (Elt F)),
    binary main_arg16 main_v35 main_v36 (addf : (⟨S128, .f32⟩ : BufTy).Contents (Elt F) → (⟨S128, .f32⟩ : BufTy).Contents (Elt F) → (⟨S128, .f32⟩ : BufTy).Contents (Elt F)),
    unary main_v36 main_v37 (Host.rsqrt : (⟨S128, .f32⟩ : BufTy).Contents (Elt F) → (⟨S128, .f32⟩ : BufTy).Contents (Elt F)),
    binary main_arg13 main_v37 main_v38 (mulf : (⟨S128, .f32⟩ : BufTy).Contents (Elt F) → (⟨S128, .f32⟩ : BufTy).Contents (Elt F) → (⟨S128, .f32⟩ : BufTy).Contents (Elt F)),
    unary main_v38 main_v39 (broadcastInDim S1x128 ![1] bcast_S128_S1x128_1 : (⟨S128, .f32⟩ : BufTy).Contents (Elt F) → (⟨S1x128, .f32⟩ : BufTy).Contents (Elt F)),
    unary main_v39 main_v40 (broadcastInDim S50000x128 ![0, 1] bcast_S1x128_S50000x128_0_1 : (⟨S1x128, .f32⟩ : BufTy).Contents (Elt F) → (⟨S50000x128, .f32⟩ : BufTy).Contents (Elt F)),
    binary main_v34 main_v40 main_v41 (mulf : (⟨S50000x128, .f32⟩ : BufTy).Contents (Elt F) → (⟨S50000x128, .f32⟩ : BufTy).Contents (Elt F) → (⟨S50000x128, .f32⟩ : BufTy).Contents (Elt F)),
    unary main_arg14 main_v42 (broadcastInDim S1x128 ![1] bcast_S128_S1x128_1 : (⟨S128, .f32⟩ : BufTy).Contents (Elt F) → (⟨S1x128, .f32⟩ : BufTy).Contents (Elt F)),
    unary main_v42 main_v43 (broadcastInDim S50000x128 ![0, 1] bcast_S1x128_S50000x128_0_1 : (⟨S1x128, .f32⟩ : BufTy).Contents (Elt F) → (⟨S50000x128, .f32⟩ : BufTy).Contents (Elt F)),
    binary main_v41 main_v43 main_v44 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v44) (TRef.of (T := ⟨S50000x128, .f32⟩) main_call0_v0) (TRef.of (T := ⟨S50000x128, .f32⟩) main_v45) maximumf ]

/-- The operations of the second hidden layer, in order, through its rectifier (the result is `main_v87`). -/
abbrev opsHidden2 : List (HloOp τ sig (Elt F)) :=
  [
    nullary main_c_5 (constantI S_ 32 0#32),
    unary main_c_5 main_v46 (broadcastInDim S800000 ![] bcast_S_S800000 : (⟨S_, .i32⟩ : BufTy).Contents (Elt F) → (⟨S800000, .i32⟩ : BufTy).Contents (Elt F)),
    binary main_v1 main_v46 main_v47 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v48 (broadcastInDim S800000 ![] bcast_S_S800000 : (⟨S_, .i32⟩ : BufTy).Contents (Elt F) → (⟨S800000, .i32⟩ : BufTy).Contents (Elt F)),
    binary main_v1 main_v48 main_v49 (addi : (⟨S800000, .i32⟩ : BufTy).Contents (Elt F) → (⟨S800000, .i32⟩ : BufTy).Contents (Elt F) → (⟨S800000, .i32⟩ : BufTy).Contents (Elt F)),
    ternary main_v47 main_v49 main_v1 main_v50 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v50 main_v51 (broadcastInDim S800000x1 ![0] bcast_S800000_S800000x1_0 : (⟨S800000, .i32⟩ : BufTy).Contents (Elt F) → (⟨S800000x1, .i32⟩ : BufTy).Contents (Elt F)),
    binary main_v45 main_v51 main_v52 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg3 main_v53 (broadcastInDim S800000x1 ![0] bcast_S800000_S800000x1_0 : (⟨S800000, .f32⟩ : BufTy).Contents (Elt F) → (⟨S800000x1, .f32⟩ : BufTy).Contents (Elt F)),
    unary main_v53 main_v54 (broadcastInDim S800000x128 ![0, 1] bcast_S800000x1_S800000x128_0_1 : (⟨S800000x1, .f32⟩ : BufTy).Contents (Elt F) → (⟨S800000x128, .f32⟩ : BufTy).Contents (Elt F)),
    binary main_v52 main_v54 main_v55 (mulf : (⟨S800000x128, .f32⟩ : BufTy).Contents (Elt F) → (⟨S800000x128, .f32⟩ : BufTy).Contents (Elt F) → (⟨S800000x128, .f32⟩ : BufTy).Contents (Elt F)),
    nullary main_cst_7 (constant S_ .f32 0x00000000#32),
    unary main_cst_7 main_v56 (broadcastInDim S50000x128 ![] bcast_S_S50000x128 : (⟨S_, .f32⟩ : BufTy).Contents (Elt F) → (⟨S50000x128, .f32⟩ : BufTy).Contents (Elt F)),
    unary main_v3 main_v57 (broadcastInDim S800000x1 ![0] bcast_S800000_S800000x1_0 : (⟨S800000, .i32⟩ : BufTy).Contents (Elt F) → (⟨S800000x1, .i32⟩ : BufTy).Contents (Elt F)),
    ternary main_v56 main_v57 main_v55 main_v58 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_8 (constant S_ .f32 0x3F800000#32),
    unary main_cst_8 main_v59 (broadcastInDim S800000 ![] bcast_S_S800000 : (⟨S_, .f32⟩ : BufTy).Contents (Elt F) → (⟨S800000, .f32⟩ : BufTy).Contents (Elt F)),
    nullary main_cst_9 (constant S_ .f32 0x00000000#32),
    unary main_cst_9 main_v60 (broadcastInDim S50000 ![] bcast_S_S50000 : (⟨S_, .f32⟩ : BufTy).Contents (Elt F) → (⟨S50000, .f32⟩ : BufTy).Contents (Elt F)),
    unary main_v3 main_v61 (broadcastInDim S800000x1 ![0] bcast_S800000_S800000x1_0 : (⟨S800000, .i32⟩ : BufTy).Contents (Elt F) → (⟨S800000x1, .i32⟩ : BufTy).Contents (Elt F)),
    ternary main_v60 main_v61 main_v59 main_v62 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_10 (constant S_ .f32 0x3F800000#32),
    unary main_cst_10 main_v63 (broadcastInDim S50000 ![] bcast_S_S50000 : (⟨S_, .f32⟩ : BufTy).Contents (Elt F) → (⟨S50000, .f32⟩ : BufTy).Contents (Elt F)),
    binary main_v62 main_v63 main_v64 (maximumf : (⟨S50000, .f32⟩ : BufTy).Contents (Elt F) → (⟨S50000, .f32⟩ : BufTy).Contents (Elt F) → (⟨S50000, .f32⟩ : BufTy).Contents (Elt F)),
    unary main_v64 main_v65 (broadcastInDim S50000x1 ![0] bcast_S50000_S50000x1_0 : (⟨S50000, .f32⟩ : BufTy).Contents (Elt F) → (⟨S50000x1, .f32⟩ : BufTy).Contents (Elt F)),
    unary main_v65 main_v66 (broadcastInDim S50000x128 ![0, 1] bcast_S50000x1_S50000x128_0_1 : (⟨S50000x1, .f32⟩ : BufTy).Contents (Elt F) → (⟨S50000x128, .f32⟩ : BufTy).Contents (Elt F)),
    binary main_v58 main_v66 main_v67 (Host.divf : (⟨S50000x128, .f32⟩ : BufTy).Contents (Elt F) → (⟨S50000x128, .f32⟩ : BufTy).Contents (Elt F) → (⟨S50000x128, .f32⟩ : BufTy).Contents (Elt F)),
    binary main_v67 main_arg7 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v68 main_v70 main_v71 (addf : (⟨S50000x128, .f32⟩ : BufTy).Contents (Elt F) → (⟨S50000x128, .f32⟩ : BufTy).Contents (Elt F) → (⟨S50000x128, .f32⟩ : BufTy).Contents (Elt F)),
    binary main_v45 main_arg9 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v71 main_v72 main_v73 (addf : (⟨S50000x128, .f32⟩ : BufTy).Contents (Elt F) → (⟨S50000x128, .f32⟩ : BufTy).Contents (Elt F) → (⟨S50000x128, .f32⟩ : BufTy).Contents (Elt F)),
    unary main_arg19 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v73 main_v75 main_v76 (subf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x3727C5AC#32),
    unary main_cst_11 main_v77 (broadcastInDim S128 ![] bcast_S_S128 : (⟨S_, .f32⟩ : BufTy).Contents (Elt F) → (⟨S128, .f32⟩ : BufTy).Contents (Elt F)),
    binary main_arg20 main_v77 main_v78 (addf : (⟨S128, .f32⟩ : BufTy).Contents (Elt F) → (⟨S128, .f32⟩ : BufTy).Contents (Elt F) → (⟨S128, .f32⟩ : BufTy).Contents (Elt F)),
    unary main_v78 main_v79 (Host.rsqrt : (⟨S128, .f32⟩ : BufTy).Contents (Elt F) → (⟨S128, .f32⟩ : BufTy).Contents (Elt F)),
    binary main_arg17 main_v79 main_v80 (mulf : (⟨S128, .f32⟩ : BufTy).Contents (Elt F) → (⟨S128, .f32⟩ : BufTy).Contents (Elt F) → (⟨S128, .f32⟩ : BufTy).Contents (Elt F)),
    unary main_v80 main_v81 (broadcastInDim S1x128 ![1] bcast_S128_S1x128_1 : (⟨S128, .f32⟩ : BufTy).Contents (Elt F) → (⟨S1x128, .f32⟩ : BufTy).Contents (Elt F)),
    unary main_v81 main_v82 (broadcastInDim S50000x128 ![0, 1] bcast_S1x128_S50000x128_0_1 : (⟨S1x128, .f32⟩ : BufTy).Contents (Elt F) → (⟨S50000x128, .f32⟩ : BufTy).Contents (Elt F)),
    binary main_v76 main_v82 main_v83 (mulf : (⟨S50000x128, .f32⟩ : BufTy).Contents (Elt F) → (⟨S50000x128, .f32⟩ : BufTy).Contents (Elt F) → (⟨S50000x128, .f32⟩ : BufTy).Contents (Elt F)),
    unary main_arg18 main_v84 (broadcastInDim S1x128 ![1] bcast_S128_S1x128_1 : (⟨S128, .f32⟩ : BufTy).Contents (Elt F) → (⟨S1x128, .f32⟩ : BufTy).Contents (Elt F)),
    unary main_v84 main_v85 (broadcastInDim S50000x128 ![0, 1] bcast_S1x128_S50000x128_0_1 : (⟨S1x128, .f32⟩ : BufTy).Contents (Elt F) → (⟨S50000x128, .f32⟩ : BufTy).Contents (Elt F)),
    binary main_v83 main_v85 main_v86 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v86) (TRef.of (T := ⟨S50000x128, .f32⟩) main_call1_v0) (TRef.of (T := ⟨S50000x128, .f32⟩) main_v87) maximumf ]

/-- The operations of the last layer, in order, through the log-softmax (the result is `main_v117`). -/
abbrev opsOutput : List (HloOp τ sig (Elt F)) :=
  [
    nullary main_cst_12 (constant S_ .f32 0x3F800000#32),
    unary main_cst_12 main_v88 (broadcastInDim S800000 ![] bcast_S_S800000 : (⟨S_, .f32⟩ : BufTy).Contents (Elt F) → (⟨S800000, .f32⟩ : BufTy).Contents (Elt F)),
    nullary main_c_13 (constantI S_ 32 0#32),
    unary main_c_13 main_v89 (broadcastInDim S800000 ![] bcast_S_S800000 : (⟨S_, .i32⟩ : BufTy).Contents (Elt F) → (⟨S800000, .i32⟩ : BufTy).Contents (Elt F)),
    binary main_v1 main_v89 main_v90 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v91 (broadcastInDim S800000 ![] bcast_S_S800000 : (⟨S_, .i32⟩ : BufTy).Contents (Elt F) → (⟨S800000, .i32⟩ : BufTy).Contents (Elt F)),
    binary main_v1 main_v91 main_v92 (addi : (⟨S800000, .i32⟩ : BufTy).Contents (Elt F) → (⟨S800000, .i32⟩ : BufTy).Contents (Elt F) → (⟨S800000, .i32⟩ : BufTy).Contents (Elt F)),
    ternary main_v90 main_v92 main_v1 main_v93 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v93 main_v94 (broadcastInDim S800000x1 ![0] bcast_S800000_S800000x1_0 : (⟨S800000, .i32⟩ : BufTy).Contents (Elt F) → (⟨S800000x1, .i32⟩ : BufTy).Contents (Elt F)),
    binary main_v87 main_v94 main_v95 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v88 main_v96 (broadcastInDim S800000x1 ![0] bcast_S800000_S800000x1_0 : (⟨S800000, .f32⟩ : BufTy).Contents (Elt F) → (⟨S800000x1, .f32⟩ : BufTy).Contents (Elt F)),
    unary main_v96 main_v97 (broadcastInDim S800000x128 ![0, 1] bcast_S800000x1_S800000x128_0_1 : (⟨S800000x1, .f32⟩ : BufTy).Contents (Elt F) → (⟨S800000x128, .f32⟩ : BufTy).Contents (Elt F)),
    binary main_v95 main_v97 main_v98 (mulf : (⟨S800000x128, .f32⟩ : BufTy).Contents (Elt F) → (⟨S800000x128, .f32⟩ : BufTy).Contents (Elt F) → (⟨S800000x128, .f32⟩ : BufTy).Contents (Elt F)),
    nullary main_cst_15 (constant S_ .f32 0x00000000#32),
    unary main_cst_15 main_v99 (broadcastInDim S50000x128 ![] bcast_S_S50000x128 : (⟨S_, .f32⟩ : BufTy).Contents (Elt F) → (⟨S50000x128, .f32⟩ : BufTy).Contents (Elt F)),
    unary main_v3 main_v100 (broadcastInDim S800000x1 ![0] bcast_S800000_S800000x1_0 : (⟨S800000, .i32⟩ : BufTy).Contents (Elt F) → (⟨S800000x1, .i32⟩ : BufTy).Contents (Elt F)),
    ternary main_v99 main_v100 main_v98 main_v101 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_16 (constant S_ .f32 0x3F800000#32),
    unary main_cst_16 main_v102 (broadcastInDim S800000 ![] bcast_S_S800000 : (⟨S_, .f32⟩ : BufTy).Contents (Elt F) → (⟨S800000, .f32⟩ : BufTy).Contents (Elt F)),
    nullary main_cst_17 (constant S_ .f32 0x00000000#32),
    unary main_cst_17 main_v103 (broadcastInDim S50000 ![] bcast_S_S50000 : (⟨S_, .f32⟩ : BufTy).Contents (Elt F) → (⟨S50000, .f32⟩ : BufTy).Contents (Elt F)),
    unary main_v3 main_v104 (broadcastInDim S800000x1 ![0] bcast_S800000_S800000x1_0 : (⟨S800000, .i32⟩ : BufTy).Contents (Elt F) → (⟨S800000x1, .i32⟩ : BufTy).Contents (Elt F)),
    ternary main_v103 main_v104 main_v102 main_v105 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_18 (constant S_ .f32 0x3F800000#32),
    unary main_cst_18 main_v106 (broadcastInDim S50000 ![] bcast_S_S50000 : (⟨S_, .f32⟩ : BufTy).Contents (Elt F) → (⟨S50000, .f32⟩ : BufTy).Contents (Elt F)),
    binary main_v105 main_v106 main_v107 (maximumf : (⟨S50000, .f32⟩ : BufTy).Contents (Elt F) → (⟨S50000, .f32⟩ : BufTy).Contents (Elt F) → (⟨S50000, .f32⟩ : BufTy).Contents (Elt F)),
    unary main_v107 main_v108 (broadcastInDim S50000x1 ![0] bcast_S50000_S50000x1_0 : (⟨S50000, .f32⟩ : BufTy).Contents (Elt F) → (⟨S50000x1, .f32⟩ : BufTy).Contents (Elt F)),
    unary main_v108 main_v109 (broadcastInDim S50000x128 ![0, 1] bcast_S50000x1_S50000x128_0_1 : (⟨S50000x1, .f32⟩ : BufTy).Contents (Elt F) → (⟨S50000x128, .f32⟩ : BufTy).Contents (Elt F)),
    binary main_v101 main_v109 main_v110 (Host.divf : (⟨S50000x128, .f32⟩ : BufTy).Contents (Elt F) → (⟨S50000x128, .f32⟩ : BufTy).Contents (Elt F) → (⟨S50000x128, .f32⟩ : BufTy).Contents (Elt F)),
    binary main_v110 main_arg10 main_v111 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg11 main_v112 (broadcastInDim S1x40 ![1] bcast_S40_S1x40_1 : (⟨S40, .f32⟩ : BufTy).Contents (Elt F) → (⟨S1x40, .f32⟩ : BufTy).Contents (Elt F)),
    unary main_v112 main_v113 (broadcastInDim S50000x40 ![0, 1] bcast_S1x40_S50000x40_0_1 : (⟨S1x40, .f32⟩ : BufTy).Contents (Elt F) → (⟨S50000x40, .f32⟩ : BufTy).Contents (Elt F)),
    binary main_v111 main_v113 main_v114 (addf : (⟨S50000x40, .f32⟩ : BufTy).Contents (Elt F) → (⟨S50000x40, .f32⟩ : BufTy).Contents (Elt F) → (⟨S50000x40, .f32⟩ : BufTy).Contents (Elt F)),
    binary main_v87 main_arg12 main_v115 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    binary main_v114 main_v115 main_v116 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call2_cst) (constant S_ .f32 0xFF800000#32),
    TRef.binary (TRef.of (T := ⟨S50000x40, .f32⟩) main_v116) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v116) (TRef.of (T := ⟨S50000x40, .f32⟩) main_call2_v4) (TRef.of (T := ⟨S50000x40, .f32⟩) main_call2_v5) subf,
    TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v117) subf ]

/-- The whole program's operations: the three layers' one after the other. -/
abbrev ops : List (HloOp τ sig (Elt F)) := opsHidden1 ++ (opsHidden2 ++ opsOutput)

set_option maxHeartbeats 4000000 in
/-- The printed program is the run of its operations in order. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsHidden1_sub : (opsHidden1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem opsHidden2_sub : (opsHidden2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem opsOutput_sub : (opsOutput : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every operation touches TensorCore references only. -/
theorem ops_sub : (ops : List (HloOp τ sig (Elt F))).Forall fun op => op.bufs ⊆ tcRefs τ sig :=
  List.forall_append.mpr ⟨opsHidden1_sub, List.forall_append.mpr ⟨opsHidden2_sub, opsOutput_sub⟩⟩

/-- No operation allocates: each determines its results (decided entry by entry over each list). -/
theorem opsHidden1_fresh : ∀ op ∈ (opsHidden1 : List (HloOp τ sig (Elt F))), op.fresh = ∅ := by
  intro _ h; (repeat (cases h with | head => rfl | tail _ h => ?_)); exact nomatch h
theorem opsHidden2_fresh : ∀ op ∈ (opsHidden2 : List (HloOp τ sig (Elt F))), op.fresh = ∅ := by
  intro _ h; (repeat (cases h with | head => rfl | tail _ h => ?_)); exact nomatch h
theorem opsOutput_fresh : ∀ op ∈ (opsOutput : List (HloOp τ sig (Elt F))), op.fresh = ∅ := by
  intro _ h; (repeat (cases h with | head => rfl | tail _ h => ?_)); exact nomatch h
theorem ops_fresh : ∀ op ∈ (ops : List (HloOp τ sig (Elt F))), op.fresh = ∅ := by
  intro op h
  rcases List.mem_append.mp h with h | h
  · exact opsHidden1_fresh op h
  · rcases List.mem_append.mp h with h | h
    · exact opsHidden2_fresh op h
    · exact opsOutput_fresh op h

variable (m : (ℓ : Loc nD τ sig) → Buf (Elt F) ℓ) (ρ : Dev nD → PrngReg)

/-- The buffers at launch, after the first hidden layer, after the second, and at the end (definitions, so that a
    reading of one layer stops at the layer before). -/
abbrev U0 (c : Dev nD) : Valuation τ sig (Elt F) := launchContents m c
def U1 (c : Dev nD) : Valuation τ sig (Elt F) := after opsHidden1 (U0 m c)
def U2 (c : Dev nD) : Valuation τ sig (Elt F) := after opsHidden2 (U1 m c)
def U3 (c : Dev nD) : Valuation τ sig (Elt F) := after opsOutput (U2 m c)

/-- On every device, from any memory with zero counters: every weakly fair execution of the reference terminates,
    nothing faulting, and every buffer ends at the last layer's results over the earlier layers'. -/
theorem run_all : θ_run defs (onTc (τ := τ) (main (F := F))) ⟨m, fun _ => 0, ρ⟩ fun r =>
    ∀ (c : Dev nD) (b : Ref sig .tc), r.2.mem ((c.tc : Thread nD τ).loc b) = U3 m c (Proc.devRef .tc b) :=
  (θ_run defs _ _).mono (fun _ h c b => (h c b).trans (by
      show after (opsHidden1 ++ (opsHidden2 ++ opsOutput)) (launchContents m c) (Proc.devRef .tc b) = _
      rw [StableHlo.after_append, StableHlo.after_append]
      rfl))
    (run_seq scopedRefs_eq scopedSems_eq defs main (fun _ => ops) main_eq (fun _ => ops_sub) m ρ (fun _ => ops_fresh))

end Cert.ReferenceIdeal.Layered

end
-- ==== Proof.LibTypedRef.lean ====
/-
  A typed reference is a buffer together with the type its contents are read at, which is the buffer's own type.
  A value written through such a reference is carried to the buffer's type, and a value read through it is carried
  back.  The two transports are inverse to each other — for every typed reference, with nothing evaluated: the
  statement does not look up what the buffer's type is.

  Where a program's operations are spelt over typed references (the operations of a function the program calls,
  standing in the call's place), each result read back through the list of operations carries one such pair per
  operation, nested one inside the other.  Cancelling the pairs with these lemmas first leaves a term that can be
  rewritten and compared like that of any other list of operations.
-/
import Idealize.ShloMosaic.Lib.StableHlo

namespace Cert.Lib.TypedRef

open Idealize.ShloMosaic Idealize.ShloMosaic.StableHlo

variable {sig : RefSig} {Val : EltTy → Type} {T : BufTy}

/-- Contents carried to a typed reference's buffer type and back are the contents. -/
theorem ofBuf_toBuf (x : TRef sig T) (v : T.Contents Val) : x.ofBuf (x.toBuf v) = v := by
  show cast _ (cast _ v) = v
  rw [cast_cast, cast_eq]

/-- Buffer contents carried to a typed reference's value type and back are the buffer contents. -/
theorem toBuf_ofBuf (x : TRef sig T) (v : x.ref.ty.Contents Val) : x.toBuf (x.ofBuf v) = v := by
  show cast _ (cast _ v) = v
  rw [cast_cast, cast_eq]

end Cert.Lib.TypedRef
-- ==== Proof.ReferenceChain.lean ====
/-
  What the reference's buffers hold after each of its three layers.

  After the first layer's operations the first rectifier's buffer holds the first hidden layer, as a function of the
  arguments; after the second layer's, the second rectifier's buffer holds the second hidden layer; after the last
  layer's, the result buffer holds the log-softmax layer.  The two rows of the edge index, sliced once at the start,
  are read again by the later layers, and no operation ever writes an argument array: each is, at every boundary,
  what it was at launch.
-/
import proofs.«120692_j18992345383143_2_alg».proof.Proof.ReferenceRun
import proofs.«120692_j18992345383143_2_alg».proof.Proof.ReferenceReadPatched
import proofs.«120692_j18992345383143_2_alg».proof.Proof.LibTypedRef

set_option maxRecDepth 16384

noncomputable section

namespace Cert.ReferenceIdeal.Chain

open Cert.ReferenceIdeal Cert.ReferenceIdeal.Gen Cert.ReferenceIdeal.Layered Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-! ## After the first hidden layer -/

theorem first_arg0 : U1 m c (Proc.devRef .tc main_arg0) = m ((c.tc : Thread nD τ).loc main_arg0) := by
  show after opsHidden1 (U0 m c) (Proc.devRef .tc main_arg0) = _
  after_results_simp <;> rfl
theorem first_arg1 : U1 m c (Proc.devRef .tc main_arg1) = m ((c.tc : Thread nD τ).loc main_arg1) := by
  show after opsHidden1 (U0 m c) (Proc.devRef .tc main_arg1) = _
  after_results_simp <;> rfl
theorem first_arg2 : U1 m c (Proc.devRef .tc main_arg2) = m ((c.tc : Thread nD τ).loc main_arg2) := by
  show after opsHidden1 (U0 m c) (Proc.devRef .tc main_arg2) = _
  after_results_simp <;> rfl
theorem first_arg3 : U1 m c (Proc.devRef .tc main_arg3) = m ((c.tc : Thread nD τ).loc main_arg3) := by
  show after opsHidden1 (U0 m c) (Proc.devRef .tc main_arg3) = _
  after_results_simp <;> rfl
theorem first_arg4 : U1 m c (Proc.devRef .tc main_arg4) = m ((c.tc : Thread nD τ).loc main_arg4) := by
  show after opsHidden1 (U0 m c) (Proc.devRef .tc main_arg4) = _
  after_results_simp <;> rfl
theorem first_arg5 : U1 m c (Proc.devRef .tc main_arg5) = m ((c.tc : Thread nD τ).loc main_arg5) := by
  show after opsHidden1 (U0 m c) (Proc.devRef .tc main_arg5) = _
  after_results_simp <;> rfl
theorem first_arg6 : U1 m c (Proc.devRef .tc main_arg6) = m ((c.tc : Thread nD τ).loc main_arg6) := by
  show after opsHidden1 (U0 m c) (Proc.devRef .tc main_arg6) = _
  after_results_simp <;> rfl
theorem first_arg7 : U1 m c (Proc.devRef .tc main_arg7) = m ((c.tc : Thread nD τ).loc main_arg7) := by
  show after opsHidden1 (U0 m c) (Proc.devRef .tc main_arg7) = _
  after_results_simp <;> rfl
theorem first_arg8 : U1 m c (Proc.devRef .tc main_arg8) = m ((c.tc : Thread nD τ).loc main_arg8) := by
  show after opsHidden1 (U0 m c) (Proc.devRef .tc main_arg8) = _
  after_results_simp <;> rfl
theorem first_arg9 : U1 m c (Proc.devRef .tc main_arg9) = m ((c.tc : Thread nD τ).loc main_arg9) := by
  show after opsHidden1 (U0 m c) (Proc.devRef .tc main_arg9) = _
  after_results_simp <;> rfl
theorem first_arg10 : U1 m c (Proc.devRef .tc main_arg10) = m ((c.tc : Thread nD τ).loc main_arg10) := by
  show after opsHidden1 (U0 m c) (Proc.devRef .tc main_arg10) = _
  after_results_simp <;> rfl
theorem first_arg11 : U1 m c (Proc.devRef .tc main_arg11) = m ((c.tc : Thread nD τ).loc main_arg11) := by
  show after opsHidden1 (U0 m c) (Proc.devRef .tc main_arg11) = _
  after_results_simp <;> rfl
theorem first_arg12 : U1 m c (Proc.devRef .tc main_arg12) = m ((c.tc : Thread nD τ).loc main_arg12) := by
  show after opsHidden1 (U0 m c) (Proc.devRef .tc main_arg12) = _
  after_results_simp <;> rfl
theorem first_arg13 : U1 m c (Proc.devRef .tc main_arg13) = m ((c.tc : Thread nD τ).loc main_arg13) := by
  show after opsHidden1 (U0 m c) (Proc.devRef .tc main_arg13) = _
  after_results_simp <;> rfl
theorem first_arg14 : U1 m c (Proc.devRef .tc main_arg14) = m ((c.tc : Thread nD τ).loc main_arg14) := by
  show after opsHidden1 (U0 m c) (Proc.devRef .tc main_arg14) = _
  after_results_simp <;> rfl
theorem first_arg15 : U1 m c (Proc.devRef .tc main_arg15) = m ((c.tc : Thread nD τ).loc main_arg15) := by
  show after opsHidden1 (U0 m c) (Proc.devRef .tc main_arg15) = _
  after_results_simp <;> rfl
theorem first_arg16 : U1 m c (Proc.devRef .tc main_arg16) = m ((c.tc : Thread nD τ).loc main_arg16) := by
  show after opsHidden1 (U0 m c) (Proc.devRef .tc main_arg16) = _
  after_results_simp <;> rfl
theorem first_arg17 : U1 m c (Proc.devRef .tc main_arg17) = m ((c.tc : Thread nD τ).loc main_arg17) := by
  show after opsHidden1 (U0 m c) (Proc.devRef .tc main_arg17) = _
  after_results_simp <;> rfl
theorem first_arg18 : U1 m c (Proc.devRef .tc main_arg18) = m ((c.tc : Thread nD τ).loc main_arg18) := by
  show after opsHidden1 (U0 m c) (Proc.devRef .tc main_arg18) = _
  after_results_simp <;> rfl
theorem first_arg19 : U1 m c (Proc.devRef .tc main_arg19) = m ((c.tc : Thread nD τ).loc main_arg19) := by
  show after opsHidden1 (U0 m c) (Proc.devRef .tc main_arg19) = _
  after_results_simp <;> rfl
theorem first_arg20 : U1 m c (Proc.devRef .tc main_arg20) = m ((c.tc : Thread nD τ).loc main_arg20) := by
  show after opsHidden1 (U0 m c) (Proc.devRef .tc main_arg20) = _
  after_results_simp <;> rfl

theorem first_src : U1 m c (Proc.devRef .tc main_v1) = val_main_v1 (F := F) (m ((c.tc : Thread nD τ).loc main_arg1)) := by
  show after opsHidden1 (U0 m c) (Proc.devRef .tc main_v1) = _
  after_results_simp
  rfl
theorem first_dst : U1 m c (Proc.devRef .tc main_v3) = val_main_v3 (F := F) (m ((c.tc : Thread nD τ).loc main_arg1)) := by
  show after opsHidden1 (U0 m c) (Proc.devRef .tc main_v3) = _
  after_results_simp
  rfl
/-- The first rectifier's buffer holds the first hidden layer. -/
theorem first_hidden : U1 m c (Proc.devRef .tc main_v45) = val_main_v45 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg13)) (m ((c.tc : Thread nD τ).loc main_arg14)) (m ((c.tc : Thread nD τ).loc main_arg15)) (m ((c.tc : Thread nD τ).loc main_arg16)) := by
  show after opsHidden1 (U0 m c) (Proc.devRef .tc main_v45) = _
  after_results_simp
  rfl

/-! ## After the second hidden layer -/

theorem second_arg0 : U2 m c (Proc.devRef .tc main_arg0) = m ((c.tc : Thread nD τ).loc main_arg0) := by
  show after opsHidden2 (U1 m c) (Proc.devRef .tc main_arg0) = _
  after_results_simp
  exact first_arg0 m c
theorem second_arg1 : U2 m c (Proc.devRef .tc main_arg1) = m ((c.tc : Thread nD τ).loc main_arg1) := by
  show after opsHidden2 (U1 m c) (Proc.devRef .tc main_arg1) = _
  after_results_simp
  exact first_arg1 m c
theorem second_arg2 : U2 m c (Proc.devRef .tc main_arg2) = m ((c.tc : Thread nD τ).loc main_arg2) := by
  show after opsHidden2 (U1 m c) (Proc.devRef .tc main_arg2) = _
  after_results_simp
  exact first_arg2 m c
theorem second_arg3 : U2 m c (Proc.devRef .tc main_arg3) = m ((c.tc : Thread nD τ).loc main_arg3) := by
  show after opsHidden2 (U1 m c) (Proc.devRef .tc main_arg3) = _
  after_results_simp
  exact first_arg3 m c
theorem second_arg4 : U2 m c (Proc.devRef .tc main_arg4) = m ((c.tc : Thread nD τ).loc main_arg4) := by
  show after opsHidden2 (U1 m c) (Proc.devRef .tc main_arg4) = _
  after_results_simp
  exact first_arg4 m c
theorem second_arg5 : U2 m c (Proc.devRef .tc main_arg5) = m ((c.tc : Thread nD τ).loc main_arg5) := by
  show after opsHidden2 (U1 m c) (Proc.devRef .tc main_arg5) = _
  after_results_simp
  exact first_arg5 m c
theorem second_arg6 : U2 m c (Proc.devRef .tc main_arg6) = m ((c.tc : Thread nD τ).loc main_arg6) := by
  show after opsHidden2 (U1 m c) (Proc.devRef .tc main_arg6) = _
  after_results_simp
  exact first_arg6 m c
theorem second_arg7 : U2 m c (Proc.devRef .tc main_arg7) = m ((c.tc : Thread nD τ).loc main_arg7) := by
  show after opsHidden2 (U1 m c) (Proc.devRef .tc main_arg7) = _
  after_results_simp
  exact first_arg7 m c
theorem second_arg8 : U2 m c (Proc.devRef .tc main_arg8) = m ((c.tc : Thread nD τ).loc main_arg8) := by
  show after opsHidden2 (U1 m c) (Proc.devRef .tc main_arg8) = _
  after_results_simp
  exact first_arg8 m c
theorem second_arg9 : U2 m c (Proc.devRef .tc main_arg9) = m ((c.tc : Thread nD τ).loc main_arg9) := by
  show after opsHidden2 (U1 m c) (Proc.devRef .tc main_arg9) = _
  after_results_simp
  exact first_arg9 m c
theorem second_arg10 : U2 m c (Proc.devRef .tc main_arg10) = m ((c.tc : Thread nD τ).loc main_arg10) := by
  show after opsHidden2 (U1 m c) (Proc.devRef .tc main_arg10) = _
  after_results_simp
  exact first_arg10 m c
theorem second_arg11 : U2 m c (Proc.devRef .tc main_arg11) = m ((c.tc : Thread nD τ).loc main_arg11) := by
  show after opsHidden2 (U1 m c) (Proc.devRef .tc main_arg11) = _
  after_results_simp
  exact first_arg11 m c
theorem second_arg12 : U2 m c (Proc.devRef .tc main_arg12) = m ((c.tc : Thread nD τ).loc main_arg12) := by
  show after opsHidden2 (U1 m c) (Proc.devRef .tc main_arg12) = _
  after_results_simp
  exact first_arg12 m c
theorem second_arg13 : U2 m c (Proc.devRef .tc main_arg13) = m ((c.tc : Thread nD τ).loc main_arg13) := by
  show after opsHidden2 (U1 m c) (Proc.devRef .tc main_arg13) = _
  after_results_simp
  exact first_arg13 m c
theorem second_arg14 : U2 m c (Proc.devRef .tc main_arg14) = m ((c.tc : Thread nD τ).loc main_arg14) := by
  show after opsHidden2 (U1 m c) (Proc.devRef .tc main_arg14) = _
  after_results_simp
  exact first_arg14 m c
theorem second_arg15 : U2 m c (Proc.devRef .tc main_arg15) = m ((c.tc : Thread nD τ).loc main_arg15) := by
  show after opsHidden2 (U1 m c) (Proc.devRef .tc main_arg15) = _
  after_results_simp
  exact first_arg15 m c
theorem second_arg16 : U2 m c (Proc.devRef .tc main_arg16) = m ((c.tc : Thread nD τ).loc main_arg16) := by
  show after opsHidden2 (U1 m c) (Proc.devRef .tc main_arg16) = _
  after_results_simp
  exact first_arg16 m c
theorem second_arg17 : U2 m c (Proc.devRef .tc main_arg17) = m ((c.tc : Thread nD τ).loc main_arg17) := by
  show after opsHidden2 (U1 m c) (Proc.devRef .tc main_arg17) = _
  after_results_simp
  exact first_arg17 m c
theorem second_arg18 : U2 m c (Proc.devRef .tc main_arg18) = m ((c.tc : Thread nD τ).loc main_arg18) := by
  show after opsHidden2 (U1 m c) (Proc.devRef .tc main_arg18) = _
  after_results_simp
  exact first_arg18 m c
theorem second_arg19 : U2 m c (Proc.devRef .tc main_arg19) = m ((c.tc : Thread nD τ).loc main_arg19) := by
  show after opsHidden2 (U1 m c) (Proc.devRef .tc main_arg19) = _
  after_results_simp
  exact first_arg19 m c
theorem second_arg20 : U2 m c (Proc.devRef .tc main_arg20) = m ((c.tc : Thread nD τ).loc main_arg20) := by
  show after opsHidden2 (U1 m c) (Proc.devRef .tc main_arg20) = _
  after_results_simp
  exact first_arg20 m c

theorem second_src : U2 m c (Proc.devRef .tc main_v1) = val_main_v1 (F := F) (m ((c.tc : Thread nD τ).loc main_arg1)) := by
  show after opsHidden2 (U1 m c) (Proc.devRef .tc main_v1) = _
  after_results_simp
  exact first_src m c
theorem second_dst : U2 m c (Proc.devRef .tc main_v3) = val_main_v3 (F := F) (m ((c.tc : Thread nD τ).loc main_arg1)) := by
  show after opsHidden2 (U1 m c) (Proc.devRef .tc main_v3) = _
  after_results_simp
  exact first_dst m c
/-- The second rectifier's buffer holds the second hidden layer. -/
theorem second_hidden : U2 m c (Proc.devRef .tc main_v87) = val_main_v87 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  show after opsHidden2 (U1 m c) (Proc.devRef .tc main_v87) = _
  after_results_simp
  rw [first_hidden, first_src, first_dst, first_arg3, first_arg7, first_arg8, first_arg9, first_arg17, first_arg18, first_arg19, first_arg20]
  rfl

/-! ## After the last layer -/

theorem third_arg0 : U3 m c (Proc.devRef .tc main_arg0) = m ((c.tc : Thread nD τ).loc main_arg0) := by
  show after opsOutput (U2 m c) (Proc.devRef .tc main_arg0) = _
  after_results_simp
  exact second_arg0 m c
theorem third_arg1 : U3 m c (Proc.devRef .tc main_arg1) = m ((c.tc : Thread nD τ).loc main_arg1) := by
  show after opsOutput (U2 m c) (Proc.devRef .tc main_arg1) = _
  after_results_simp
  exact second_arg1 m c
theorem third_arg2 : U3 m c (Proc.devRef .tc main_arg2) = m ((c.tc : Thread nD τ).loc main_arg2) := by
  show after opsOutput (U2 m c) (Proc.devRef .tc main_arg2) = _
  after_results_simp
  exact second_arg2 m c
theorem third_arg3 : U3 m c (Proc.devRef .tc main_arg3) = m ((c.tc : Thread nD τ).loc main_arg3) := by
  show after opsOutput (U2 m c) (Proc.devRef .tc main_arg3) = _
  after_results_simp
  exact second_arg3 m c
theorem third_arg4 : U3 m c (Proc.devRef .tc main_arg4) = m ((c.tc : Thread nD τ).loc main_arg4) := by
  show after opsOutput (U2 m c) (Proc.devRef .tc main_arg4) = _
  after_results_simp
  exact second_arg4 m c
theorem third_arg5 : U3 m c (Proc.devRef .tc main_arg5) = m ((c.tc : Thread nD τ).loc main_arg5) := by
  show after opsOutput (U2 m c) (Proc.devRef .tc main_arg5) = _
  after_results_simp
  exact second_arg5 m c
theorem third_arg6 : U3 m c (Proc.devRef .tc main_arg6) = m ((c.tc : Thread nD τ).loc main_arg6) := by
  show after opsOutput (U2 m c) (Proc.devRef .tc main_arg6) = _
  after_results_simp
  exact second_arg6 m c
theorem third_arg7 : U3 m c (Proc.devRef .tc main_arg7) = m ((c.tc : Thread nD τ).loc main_arg7) := by
  show after opsOutput (U2 m c) (Proc.devRef .tc main_arg7) = _
  after_results_simp
  exact second_arg7 m c
theorem third_arg8 : U3 m c (Proc.devRef .tc main_arg8) = m ((c.tc : Thread nD τ).loc main_arg8) := by
  show after opsOutput (U2 m c) (Proc.devRef .tc main_arg8) = _
  after_results_simp
  exact second_arg8 m c
theorem third_arg9 : U3 m c (Proc.devRef .tc main_arg9) = m ((c.tc : Thread nD τ).loc main_arg9) := by
  show after opsOutput (U2 m c) (Proc.devRef .tc main_arg9) = _
  after_results_simp
  exact second_arg9 m c
theorem third_arg10 : U3 m c (Proc.devRef .tc main_arg10) = m ((c.tc : Thread nD τ).loc main_arg10) := by
  show after opsOutput (U2 m c) (Proc.devRef .tc main_arg10) = _
  after_results_simp
  exact second_arg10 m c
theorem third_arg11 : U3 m c (Proc.devRef .tc main_arg11) = m ((c.tc : Thread nD τ).loc main_arg11) := by
  show after opsOutput (U2 m c) (Proc.devRef .tc main_arg11) = _
  after_results_simp
  exact second_arg11 m c
theorem third_arg12 : U3 m c (Proc.devRef .tc main_arg12) = m ((c.tc : Thread nD τ).loc main_arg12) := by
  show after opsOutput (U2 m c) (Proc.devRef .tc main_arg12) = _
  after_results_simp
  exact second_arg12 m c
theorem third_arg13 : U3 m c (Proc.devRef .tc main_arg13) = m ((c.tc : Thread nD τ).loc main_arg13) := by
  show after opsOutput (U2 m c) (Proc.devRef .tc main_arg13) = _
  after_results_simp
  exact second_arg13 m c
theorem third_arg14 : U3 m c (Proc.devRef .tc main_arg14) = m ((c.tc : Thread nD τ).loc main_arg14) := by
  show after opsOutput (U2 m c) (Proc.devRef .tc main_arg14) = _
  after_results_simp
  exact second_arg14 m c
theorem third_arg15 : U3 m c (Proc.devRef .tc main_arg15) = m ((c.tc : Thread nD τ).loc main_arg15) := by
  show after opsOutput (U2 m c) (Proc.devRef .tc main_arg15) = _
  after_results_simp
  exact second_arg15 m c
theorem third_arg16 : U3 m c (Proc.devRef .tc main_arg16) = m ((c.tc : Thread nD τ).loc main_arg16) := by
  show after opsOutput (U2 m c) (Proc.devRef .tc main_arg16) = _
  after_results_simp
  exact second_arg16 m c
theorem third_arg17 : U3 m c (Proc.devRef .tc main_arg17) = m ((c.tc : Thread nD τ).loc main_arg17) := by
  show after opsOutput (U2 m c) (Proc.devRef .tc main_arg17) = _
  after_results_simp
  exact second_arg17 m c
theorem third_arg18 : U3 m c (Proc.devRef .tc main_arg18) = m ((c.tc : Thread nD τ).loc main_arg18) := by
  show after opsOutput (U2 m c) (Proc.devRef .tc main_arg18) = _
  after_results_simp
  exact second_arg18 m c
theorem third_arg19 : U3 m c (Proc.devRef .tc main_arg19) = m ((c.tc : Thread nD τ).loc main_arg19) := by
  show after opsOutput (U2 m c) (Proc.devRef .tc main_arg19) = _
  after_results_simp
  exact second_arg19 m c
theorem third_arg20 : U3 m c (Proc.devRef .tc main_arg20) = m ((c.tc : Thread nD τ).loc main_arg20) := by
  show after opsOutput (U2 m c) (Proc.devRef .tc main_arg20) = _
  after_results_simp
  exact second_arg20 m c

/-- The result buffer holds the log-softmax layer.  (The log-softmax's operations carry their values through their
    buffers' types and back at every step; those pairs of transports cancel first.) -/
theorem third_output : U3 m c (Proc.devRef .tc main_v117) = val_main_v117 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  show after opsOutput (U2 m c) (Proc.devRef .tc main_v117) = _
  after_results_simp
  simp only [Cert.Lib.TypedRef.ofBuf_toBuf]
  rw [second_hidden, second_src, second_dst, second_arg10, second_arg11, second_arg12]
  rfl

end Cert.ReferenceIdeal.Chain

end
-- ==== Proof.ReferenceLayers.lean ====
/-
  The reference's three layers, read index by index.

  The reference program computes each layer as a chain of whole-array operations: two matrix products, a bias
  broadcast along the rows and added between them, and then either a batch normalisation with fixed statistics
  followed by a rectifier (the two hidden layers) or a logarithm of a softmax along the channels (the last layer).
  Every operation of those chains has an element that depends on one element of each operand (or, for a product
  and for the softmax's sum, on one row and one column), so the chain can be read at a single index (r, q): the
  broadcasts collapse to "channel q of the vector", the products to sums over the 128 inner coordinates, and what is
  left is literally the index-by-index formula of the specification.  The neighbour aggregate that enters each layer,
  and the previous layer's output, are never looked into: they are carried through as arrays.

  The one operation that is not elementwise in this sense is the row maximum of the softmax, a reduction over the
  channel axis started from −∞.  It is a fold of max over the 40 channels of the row; the reference then takes one
  more maximum with −∞, which a fold started at −∞ absorbs.  Likewise the softmax's sum is started from the zero
  word, which adds nothing.
-/
import proofs.«120692_j18992345383143_2_alg».proof.Proof.ReferenceReadPatched
import proofs.«120692_j18992345383143_2_alg».proof.Proof.LayerSpec

noncomputable section

namespace Cert.ReferenceIdeal.Layers

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

variable (x0 : (⟨S50000x128, .f32⟩ : BufTy).Contents (Elt Ideal)) (x1 : (⟨S2x800000, .i32⟩ : BufTy).Contents (Elt Ideal)) (x3 : (⟨S800000, .f32⟩ : BufTy).Contents (Elt Ideal))
  (x4 : (⟨S128x128, .f32⟩ : BufTy).Contents (Elt Ideal)) (x5 : (⟨S128, .f32⟩ : BufTy).Contents (Elt Ideal)) (x6 : (⟨S128x128, .f32⟩ : BufTy).Contents (Elt Ideal))
  (x7 : (⟨S128x128, .f32⟩ : BufTy).Contents (Elt Ideal)) (x8 : (⟨S128, .f32⟩ : BufTy).Contents (Elt Ideal)) (x9 : (⟨S128x128, .f32⟩ : BufTy).Contents (Elt Ideal))
  (x10 : (⟨S128x40, .f32⟩ : BufTy).Contents (Elt Ideal)) (x11 : (⟨S40, .f32⟩ : BufTy).Contents (Elt Ideal)) (x12 : (⟨S128x40, .f32⟩ : BufTy).Contents (Elt Ideal))
  (x13 x14 x15 x16 x17 x18 x19 x20 : (⟨S128, .f32⟩ : BufTy).Contents (Elt Ideal))

/-- The first hidden layer at every index: neighbour aggregate times the left weights, plus the bias, plus the features
    times the right weights; minus the mean, times γ · rsqrt (var + ε), plus β; rectified. -/
theorem hidden0_eq : val_main_v45 (F := Ideal) x0 x1 x3 x4 x5 x6 x13 x14 x15 x16
      = Cert.Sage.bnRelu (N := 50000) (K := 128) (C := 128) (val_main_v25 (F := Ideal) x0 x1 x3) x0 x4 x6 (fun j => x5 (ix1 j)) (fun j => x13 (ix1 j)) (fun j => x14 (ix1 j)) (fun j => x15 (ix1 j)) (fun j => x16 (ix1 j)) := by
  funext i
  obtain ⟨r, q, rfl⟩ : ∃ (r : Fin 50000) (q : Fin 128), i = ix2 r q := ⟨i 0, i 1, eq_ix2 i⟩
  -- a vector broadcast to one row and then down the rows is read at its channel
  have ebias : idx_main_v27 (idx_main_v28 (ix2 r q)) = ix1 q := funext fun a => Fin.ext (by match a with | ⟨0, _⟩ => rfl)
  have emean : idx_main_v32 (idx_main_v33 (ix2 r q)) = ix1 q := funext fun a => Fin.ext (by match a with | ⟨0, _⟩ => rfl)
  have escale : idx_main_v39 (idx_main_v40 (ix2 r q)) = ix1 q := funext fun a => Fin.ext (by match a with | ⟨0, _⟩ => rfl)
  have ebeta : idx_main_v42 (idx_main_v43 (ix2 r q)) = ix1 q := funext fun a => Fin.ext (by match a with | ⟨0, _⟩ => rfl)
  -- a product at (r, q) runs over row r of the left factor and column q of the right
  have el1 : ∀ k : Fin 128, lidx_main_v26 (ix2 r q) k = ix2 r k := fun k => funext fun a => Fin.ext (by match a with | ⟨0, _⟩ => rfl | ⟨1, _⟩ => rfl)
  have er1 : ∀ k : Fin 128, ridx_main_v26 (ix2 r q) k = ix2 k q := fun k => funext fun a => Fin.ext (by match a with | ⟨0, _⟩ => rfl | ⟨1, _⟩ => rfl)
  have el2 : ∀ k : Fin 128, lidx_main_v30 (ix2 r q) k = ix2 r k := fun k => funext fun a => Fin.ext (by match a with | ⟨0, _⟩ => rfl | ⟨1, _⟩ => rfl)
  have er2 : ∀ k : Fin 128, ridx_main_v30 (ix2 r q) k = ix2 k q := fun k => funext fun a => Fin.ext (by match a with | ⟨0, _⟩ => rfl | ⟨1, _⟩ => rfl)
  rw [val_main_v45_apply, val_main_call0_v0_apply, val_main_call0_cst_apply, val_main_v44_apply, val_main_v41_apply,
    val_main_v34_apply, val_main_v31_apply, val_main_v29_apply, val_main_v26_apply, val_main_v30_apply,
    val_main_v28_apply, val_main_v27_apply, val_main_v33_apply, val_main_v32_apply,
    val_main_v40_apply, val_main_v39_apply, val_main_v38_apply, val_main_v37_apply, val_main_v36_apply,
    val_main_v35_apply, val_main_cst_4_apply, val_main_v43_apply, val_main_v42_apply, Cert.Sage.bnRelu_apply]
  generalize val_main_v25 (F := Ideal) x0 x1 x3 = agg
  simp only [ebias, emean, escale, ebeta, el1, er1, el2, er2, Ideal.addf_def, Ideal.subf_def, Ideal.mulf_def, Ideal.maximumf_def,
    Ideal.hostUnary_rsqrt_def, Ideal.ofBits_def]
  simp only [Cert.Sage.bnReluAt, Cert.Sage.affineAt]

/-- The second hidden layer at every index: the same formula over the first layer's output and its aggregate. -/
theorem hidden1_eq : val_main_v87 (F := Ideal) x0 x1 x3 x4 x5 x6 x7 x8 x9 x13 x14 x15 x16 x17 x18 x19 x20
      = Cert.Sage.bnRelu (N := 50000) (K := 128) (C := 128) (val_main_v67 (F := Ideal) x0 x1 x3 x4 x5 x6 x13 x14 x15 x16) (val_main_v45 (F := Ideal) x0 x1 x3 x4 x5 x6 x13 x14 x15 x16) x7 x9 (fun j => x8 (ix1 j)) (fun j => x17 (ix1 j)) (fun j => x18 (ix1 j)) (fun j => x19 (ix1 j)) (fun j => x20 (ix1 j)) := by
  funext i
  obtain ⟨r, q, rfl⟩ : ∃ (r : Fin 50000) (q : Fin 128), i = ix2 r q := ⟨i 0, i 1, eq_ix2 i⟩
  -- a vector broadcast to one row and then down the rows is read at its channel
  have ebias : idx_main_v69 (idx_main_v70 (ix2 r q)) = ix1 q := funext fun a => Fin.ext (by match a with | ⟨0, _⟩ => rfl)
  have emean : idx_main_v74 (idx_main_v75 (ix2 r q)) = ix1 q := funext fun a => Fin.ext (by match a with | ⟨0, _⟩ => rfl)
  have escale : idx_main_v81 (idx_main_v82 (ix2 r q)) = ix1 q := funext fun a => Fin.ext (by match a with | ⟨0, _⟩ => rfl)
  have ebeta : idx_main_v84 (idx_main_v85 (ix2 r q)) = ix1 q := funext fun a => Fin.ext (by match a with | ⟨0, _⟩ => rfl)
  -- a product at (r, q) runs over row r of the left factor and column q of the right
  have el1 : ∀ k : Fin 128, lidx_main_v68 (ix2 r q) k = ix2 r k := fun k => funext fun a => Fin.ext (by match a with | ⟨0, _⟩ => rfl | ⟨1, _⟩ => rfl)
  have er1 : ∀ k : Fin 128, ridx_main_v68 (ix2 r q) k = ix2 k q := fun k => funext fun a => Fin.ext (by match a with | ⟨0, _⟩ => rfl | ⟨1, _⟩ => rfl)
  have el2 : ∀ k : Fin 128, lidx_main_v72 (ix2 r q) k = ix2 r k := fun k => funext fun a => Fin.ext (by match a with | ⟨0, _⟩ => rfl | ⟨1, _⟩ => rfl)
  have er2 : ∀ k : Fin 128, ridx_main_v72 (ix2 r q) k = ix2 k q := fun k => funext fun a => Fin.ext (by match a with | ⟨0, _⟩ => rfl | ⟨1, _⟩ => rfl)
  rw [val_main_v87_apply, val_main_call1_v0_apply, val_main_call1_cst_apply, val_main_v86_apply, val_main_v83_apply,
    val_main_v76_apply, val_main_v73_apply, val_main_v71_apply, val_main_v68_apply, val_main_v72_apply,
    val_main_v70_apply, val_main_v69_apply, val_main_v75_apply, val_main_v74_apply,
    val_main_v82_apply, val_main_v81_apply, val_main_v80_apply, val_main_v79_apply, val_main_v78_apply,
    val_main_v77_apply, val_main_cst_11_apply, val_main_v85_apply, val_main_v84_apply, Cert.Sage.bnRelu_apply]
  generalize val_main_v67 (F := Ideal) x0 x1 x3 x4 x5 x6 x13 x14 x15 x16 = agg
  generalize val_main_v45 (F := Ideal) x0 x1 x3 x4 x5 x6 x13 x14 x15 x16 = hid
  simp only [ebias, emean, escale, ebeta, el1, er1, el2, er2, Ideal.addf_def, Ideal.subf_def, Ideal.mulf_def, Ideal.maximumf_def,
    Ideal.hostUnary_rsqrt_def, Ideal.ofBits_def]
  simp only [Cert.Sage.bnReluAt, Cert.Sage.affineAt]

/-- Reducing the channel axis: the reduced index r with channel k put back is (r, k). -/
theorem lift_row (h : S50000x40.Reduces [1] S50000) (r : Fin 50000) (k : Fin (S50000x40.size 1)) :
    h.lift (ix1 r) k = ix2 r (⟨k.val, k.isLt⟩ : Fin 40) := by
  funext c; apply Fin.ext
  fin_cases c <;> rfl

/-- For any commutative and associative operation, folding a row over the reduced axis's coordinates is folding it over
    the 40 channels. -/
theorem fold_row (op : EReal → EReal → EReal) [Std.Commutative op] [Std.Associative op] (b : EReal)
    (h : S50000x40.Idx → EReal) (hred : S50000x40.Reduces [1] S50000) (r : Fin 50000) :
    (Finset.univ : Finset (Fin (S50000x40.size 1))).fold op b (h ∘ hred.lift (ix1 r))
      = (Finset.univ : Finset (Fin 40)).fold op b (fun k => h (ix2 r k)) :=
  congrArg (fun f => Finset.fold op b f (Finset.univ : Finset (Fin 40))) (funext fun k => congrArg h (lift_row hred r k))

/-- On the extended reals the host's maximum is max, so a fold of one is a fold of the other. -/
theorem fold_maximumf {ι : Type} (s : Finset ι) (b : EReal) (f : ι → EReal) :
    s.fold (FloatOps.maximumf (F := Ideal) (φ := .f32)) b f = s.fold max b f := rfl
/-- The last layer before its softmax, at (r, j): aggregate times the left weights, plus the bias, plus the second
    hidden layer times the right weights. -/
theorem affine2_apply (r : Fin 50000) (j : Fin 40) :
    val_main_v116 (F := Ideal) x0 x1 x3 x4 x5 x6 x7 x8 x9 x10 x11 x12 x13 x14 x15 x16 x17 x18 x19 x20 (ix2 r j)
      = Cert.Sage.affineAt (N := 50000) (K := 128) (C := 40) (val_main_v110 (F := Ideal) x0 x1 x3 x4 x5 x6 x7 x8 x9 x13 x14 x15 x16 x17 x18 x19 x20) (val_main_v87 (F := Ideal) x0 x1 x3 x4 x5 x6 x7 x8 x9 x13 x14 x15 x16 x17 x18 x19 x20) x10 x12 (fun j => x11 (ix1 j)) r j := by
  have ebias : idx_main_v112 (idx_main_v113 (ix2 r j)) = ix1 j := funext fun a => Fin.ext (by match a with | ⟨0, _⟩ => rfl)
  have el1 : ∀ k : Fin 128, lidx_main_v111 (ix2 r j) k = ix2 r k := fun k => funext fun a => Fin.ext (by match a with | ⟨0, _⟩ => rfl | ⟨1, _⟩ => rfl)
  have er1 : ∀ k : Fin 128, ridx_main_v111 (ix2 r j) k = ix2 k j := fun k => funext fun a => Fin.ext (by match a with | ⟨0, _⟩ => rfl | ⟨1, _⟩ => rfl)
  have el2 : ∀ k : Fin 128, lidx_main_v115 (ix2 r j) k = ix2 r k := fun k => funext fun a => Fin.ext (by match a with | ⟨0, _⟩ => rfl | ⟨1, _⟩ => rfl)
  have er2 : ∀ k : Fin 128, ridx_main_v115 (ix2 r j) k = ix2 k j := fun k => funext fun a => Fin.ext (by match a with | ⟨0, _⟩ => rfl | ⟨1, _⟩ => rfl)
  rw [val_main_v116_apply, val_main_v114_apply, val_main_v111_apply, val_main_v115_apply, val_main_v113_apply, val_main_v112_apply]
  generalize val_main_v110 (F := Ideal) x0 x1 x3 x4 x5 x6 x7 x8 x9 x13 x14 x15 x16 x17 x18 x19 x20 = agg
  generalize val_main_v87 (F := Ideal) x0 x1 x3 x4 x5 x6 x7 x8 x9 x13 x14 x15 x16 x17 x18 x19 x20 = hid
  simp only [ebias, el1, er1, el2, er2, Ideal.addf_def]
  simp only [Cert.Sage.affineAt]

/-- The softmax's shift at row r: the maximum over the row's 40 channels, as a fold of max from −∞.  The reduction is
    that fold, and the further maximum with −∞ the reference takes is absorbed by the fold's own starting value. -/
theorem rowMax_apply (r : Fin 50000) :
    val_main_call2_v2 (F := Ideal) x0 x1 x3 x4 x5 x6 x7 x8 x9 x10 x11 x12 x13 x14 x15 x16 x17 x18 x19 x20 (ix1 r)
      = Cert.Sage.rowMax (fun j : Fin 40 => val_main_v116 (F := Ideal) x0 x1 x3 x4 x5 x6 x7 x8 x9 x10 x11 x12 x13 x14 x15 x16 x17 x18 x19 x20 (ix2 r j)) := by
  have hred : S50000x40.Reduces [1] S50000 := by decide
  rw [val_main_call2_v2_apply, val_main_call2_v1_apply, val_main_call2_cst_0_apply]
  unfold val_main_call2_v0
  generalize val_main_v116 (F := Ideal) x0 x1 x3 x4 x5 x6 x7 x8 x9 x10 x11 x12 x13 x14 x15 x16 x17 x18 x19 x20 = h
  have hfold := Host.reduce_eq_fold_single (FloatOps.maximumf (F := Ideal) (φ := .f32)) h (val_main_call2_cst (F := Ideal))
    reducesTo_S50000x40_S50000_d1 hred h_S_ (ix1 r)
  rw [hfold, val_main_call2_cst_apply, fold_maximumf, fold_row max _ h hred r]
  simp only [Ideal.maximumf_def, Ideal.ofBits_def]
  -- a further maximum with the fold's own starting value changes nothing
  unfold Cert.Sage.rowMax
  exact Cert.Sage.max_start_fold Finset.univ Cert.Sage.negInfWord _

/-- The last layer at every index: the affine part, shifted by its row's maximum, minus the logarithm of the sum of the
    exponentials of the row's shifted entries. -/
theorem output_eq : val_main_v117 (F := Ideal) x0 x1 x3 x4 x5 x6 x7 x8 x9 x10 x11 x12 x13 x14 x15 x16 x17 x18 x19 x20
      = Cert.Sage.logSoftmaxLayer (N := 50000) (K := 128) (C := 40) (val_main_v110 (F := Ideal) x0 x1 x3 x4 x5 x6 x7 x8 x9 x13 x14 x15 x16 x17 x18 x19 x20) (val_main_v87 (F := Ideal) x0 x1 x3 x4 x5 x6 x7 x8 x9 x13 x14 x15 x16 x17 x18 x19 x20) x10 x12 (fun j => x11 (ix1 j)) := by
  funext i
  obtain ⟨r, q, rfl⟩ : ∃ (r : Fin 50000) (q : Fin 40), i = ix2 r q := ⟨i 0, i 1, eq_ix2 i⟩
  -- a per-row number broadcast to a column and then along the channels is read at its row
  have eshift : ∀ c : Fin 40, idx_main_call2_v3 (idx_main_call2_v4 (ix2 r c)) = ix1 r := fun c => funext fun a => Fin.ext (by match a with | ⟨0, _⟩ => rfl)
  have elog : idx_main_call2_v8 (idx_main_call2_v10 (ix2 r q)) = ix1 r := funext fun a => Fin.ext (by match a with | ⟨0, _⟩ => rfl)
  have esum : ∀ k : Fin 40, idx_main_call2_v7 (ix1 r) k = ix2 r k := fun k => funext fun a => Fin.ext (by match a with | ⟨0, _⟩ => rfl | ⟨1, _⟩ => rfl)
  -- row r before the softmax is the affine part's row
  have hrow : (fun j : Fin 40 => val_main_v116 (F := Ideal) x0 x1 x3 x4 x5 x6 x7 x8 x9 x10 x11 x12 x13 x14 x15 x16 x17 x18 x19 x20 (ix2 r j)) = fun j : Fin 40 => Cert.Sage.affineAt (N := 50000) (K := 128) (C := 40) (val_main_v110 (F := Ideal) x0 x1 x3 x4 x5 x6 x7 x8 x9 x13 x14 x15 x16 x17 x18 x19 x20) (val_main_v87 (F := Ideal) x0 x1 x3 x4 x5 x6 x7 x8 x9 x13 x14 x15 x16 x17 x18 x19 x20) x10 x12 (fun j => x11 (ix1 j)) r j :=
    funext fun j => affine2_apply x0 x1 x3 x4 x5 x6 x7 x8 x9 x10 x11 x12 x13 x14 x15 x16 x17 x18 x19 x20 r j
  -- the shifted entry at any channel of row r
  have hshift : ∀ c : Fin 40, val_main_call2_v5 (F := Ideal) x0 x1 x3 x4 x5 x6 x7 x8 x9 x10 x11 x12 x13 x14 x15 x16 x17 x18 x19 x20 (ix2 r c)
      = Cert.Sage.affineAt (N := 50000) (K := 128) (C := 40) (val_main_v110 (F := Ideal) x0 x1 x3 x4 x5 x6 x7 x8 x9 x13 x14 x15 x16 x17 x18 x19 x20) (val_main_v87 (F := Ideal) x0 x1 x3 x4 x5 x6 x7 x8 x9 x13 x14 x15 x16 x17 x18 x19 x20) x10 x12 (fun j => x11 (ix1 j)) r c - Cert.Sage.rowMax (fun j : Fin 40 => Cert.Sage.affineAt (N := 50000) (K := 128) (C := 40) (val_main_v110 (F := Ideal) x0 x1 x3 x4 x5 x6 x7 x8 x9 x13 x14 x15 x16 x17 x18 x19 x20) (val_main_v87 (F := Ideal) x0 x1 x3 x4 x5 x6 x7 x8 x9 x13 x14 x15 x16 x17 x18 x19 x20) x10 x12 (fun j => x11 (ix1 j)) r j) := by
    intro c
    rw [val_main_call2_v5_apply, val_main_call2_v4_apply, val_main_call2_v3_apply, eshift c, rowMax_apply, hrow, affine2_apply,
      Ideal.subf_def]
  -- the sum of the exponentials of the row's shifted entries, term by term
  have hsum : (∑ k : Fin 40, val_main_call2_v6 (F := Ideal) x0 x1 x3 x4 x5 x6 x7 x8 x9 x10 x11 x12 x13 x14 x15 x16 x17 x18 x19 x20 (idx_main_call2_v7 (ix1 r) k))
      = ∑ k : Fin 40, Ideal.exp (Cert.Sage.affineAt (N := 50000) (K := 128) (C := 40) (val_main_v110 (F := Ideal) x0 x1 x3 x4 x5 x6 x7 x8 x9 x13 x14 x15 x16 x17 x18 x19 x20) (val_main_v87 (F := Ideal) x0 x1 x3 x4 x5 x6 x7 x8 x9 x13 x14 x15 x16 x17 x18 x19 x20) x10 x12 (fun j => x11 (ix1 j)) r k - Cert.Sage.rowMax (fun j : Fin 40 => Cert.Sage.affineAt (N := 50000) (K := 128) (C := 40) (val_main_v110 (F := Ideal) x0 x1 x3 x4 x5 x6 x7 x8 x9 x13 x14 x15 x16 x17 x18 x19 x20) (val_main_v87 (F := Ideal) x0 x1 x3 x4 x5 x6 x7 x8 x9 x13 x14 x15 x16 x17 x18 x19 x20) x10 x12 (fun j => x11 (ix1 j)) r j)) :=
    Finset.sum_congr rfl fun k _ => by
      rw [esum k, val_main_call2_v6_apply, hshift k, Ideal.hostUnary_exp_def]
  rw [val_main_v117_apply, val_main_call2_v10_apply, val_main_call2_v9_apply, val_main_call2_v8_apply, elog, val_main_call2_v7_apply,
    val_main_call2_cst_1_apply, hsum, hshift q, Ideal.subf_def, Ideal.hostUnary_log_def, Ideal.ofBits_def,
    Cert.Sage.logSoftmaxLayer_apply]
  generalize val_main_v110 (F := Ideal) x0 x1 x3 x4 x5 x6 x7 x8 x9 x13 x14 x15 x16 x17 x18 x19 x20 = agg
  generalize val_main_v87 (F := Ideal) x0 x1 x3 x4 x5 x6 x7 x8 x9 x13 x14 x15 x16 x17 x18 x19 x20 = hid
  unfold Cert.Sage.logSoftmaxAt Cert.Sage.logSoftmaxRow
  rw [Cert.Sage.zeroWord_add]

end Cert.ReferenceIdeal.Layers

end
-- ==== Proof.ReferenceNetwork.lean ====
/-
  The reference program computes the same network.

  The reference's last stage is the log-softmax layer of its third aggregate stage and its second hidden stage; that
  hidden stage is the batch-norm layer of the second aggregate stage and the first hidden stage; and so on down to the
  input features.  Each aggregate stage is the neighbour aggregate of the stage before it, operation for operation.
  Substituting upwards, the last stage is the network's output of the arguments.
-/
import proofs.«120692_j18992345383143_2_alg».proof.Proof.Network
import proofs.«120692_j18992345383143_2_alg».proof.Proof.ReferenceLayers

set_option maxRecDepth 16384

noncomputable section

namespace Cert.ReferenceIdeal.NetworkValue

open Cert.ReferenceIdeal.ReadP Cert.KernelIdeal.HostChain Cert.KernelIdeal.Network
open Idealize.ShloMosaic Idealize.ShloMosaic.ValueIdx

variable (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S800000, .f32⟩ : BufTy).Contents (Elt Ideal))
    (x4 : (⟨Cert.ReferenceIdeal.S128x128, .f32⟩ : BufTy).Contents (Elt Ideal)) (x5 : (⟨Cert.ReferenceIdeal.S128, .f32⟩ : BufTy).Contents (Elt Ideal)) (x6 x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal))
    (x10 : (⟨Cert.ReferenceIdeal.S128x40, .f32⟩ : BufTy).Contents (Elt Ideal)) (x11 : (⟨Cert.ReferenceIdeal.S40, .f32⟩ : BufTy).Contents (Elt Ideal)) (x12 : (⟨Cert.ReferenceIdeal.S128x40, .f32⟩ : BufTy).Contents (Elt Ideal))
    (x13 x14 x15 x16 x17 x18 x19 x20 : (⟨Cert.ReferenceIdeal.S128, .f32⟩ : BufTy).Contents (Elt Ideal))

/-- Each of the reference's three aggregate stages is the neighbour aggregate of the stage before it: the same
    operations in the same order, so the two spellings unfold to one term. -/
theorem aggregate_input : val_main_v25 (F := Ideal) x0 x1 x3
    = aggregate (F := Ideal) x0 x3 (edgeSrc x1) (edgeDst x1) (inDegree (edgeDst x1)) := rfl

theorem aggregate_hidden1 : val_main_v67 (F := Ideal) x0 x1 x3 x4 x5 x6 x13 x14 x15 x16
    = aggregate (F := Ideal) (val_main_v45 (F := Ideal) x0 x1 x3 x4 x5 x6 x13 x14 x15 x16) x3 (edgeSrc x1) (edgeDst x1) (inDegree (edgeDst x1)) := rfl

theorem aggregate_hidden2 : val_main_v110 (F := Ideal) x0 x1 x3 x4 x5 x6 x7 x8 x9 x13 x14 x15 x16 x17 x18 x19 x20
    = aggregate (F := Ideal) (val_main_v87 (F := Ideal) x0 x1 x3 x4 x5 x6 x7 x8 x9 x13 x14 x15 x16 x17 x18 x19 x20) (unitWeights (F := Ideal)) (edgeSrc x1) (edgeDst x1) (inDegree (edgeDst x1)) := rfl

/-- The reference's result stage is the network's output of the arguments. -/
theorem reference_value : val_main_v117 (F := Ideal) x0 x1 x3 x4 x5 x6 x7 x8 x9 x10 x11 x12 x13 x14 x15 x16 x17 x18 x19 x20 = output x0 x1 x3 x4 x5 x6 x7 x8 x9 x10 x11 x12 x13 x14 x15 x16 x17 x18 x19 x20 := by
  rw [Cert.ReferenceIdeal.Layers.output_eq, aggregate_hidden2, Cert.ReferenceIdeal.Layers.hidden1_eq, aggregate_hidden1,
    Cert.ReferenceIdeal.Layers.hidden0_eq, aggregate_input]
  rfl

end Cert.ReferenceIdeal.NetworkValue

end
-- ==== Proof.lean ====
/-
  The certificate: a three-layer graph network (two hidden layers with batch normalisation and a rectifier, a
  log-softmax output layer, each fed by the mean of its neighbours' rows) computed by three kernel launches among host
  operations, against the same network written as plain array operations.

  Both programs are read at the extended reals, where every float operation is exact.  There they are one function of
  the arguments (Proof/Network.lean `output`):
    * the kernel program's result is the last link of its chain of boundary contents (Proof/KernelRun.lean); each
      launch's array is its layer of what it finds (Proof/Region0.lean, Region1.lean, Region2.lean: a block of 2000
      rows per grid point, the 25 blocks tiling the 50000 rows), and what it finds is the aggregate of the layer before
      (Proof/HostChain.lean): Proof/Network.lean `kernel_value`;
    * the reference's result is its last stage (Proof/ReferenceRun.lean, ReferenceChain.lean), which is the same
      nest of layers and aggregates (Proof/ReferenceLayers.lean, ReferenceNetwork.lean).
  The two spellings differ only where the extended reals do not care: the kernel adds the bias after the second
  matrix product and the reference between the two (addition is commutative and associative, infinities included);
  the reference takes one more maximum with −∞; products and sums are taken block by block or whole.  No step needs
  the inputs to be finite, so the precondition is never opened.  The kernel program's idealization rewrote nothing, so
  the statement that it is the kernel's sanctioned idealization is trivial; the three frames are the generated frame
  certificates and the reference's run.
-/
import proofs.«120692_j18992345383143_2_alg».proof.Defs
import proofs.«120692_j18992345383143_2_alg».proof.Proof.Gen.Kernel
import proofs.«120692_j18992345383143_2_alg».proof.Proof.Gen.Kernel.Frame
import proofs.«120692_j18992345383143_2_alg».proof.Proof.Gen.KernelIdeal
import proofs.«120692_j18992345383143_2_alg».proof.Proof.Gen.KernelIdeal.Frame
import proofs.«120692_j18992345383143_2_alg».proof.Proof.Gen.ReferenceIdeal
import proofs.«120692_j18992345383143_2_alg».proof.Proof.Gen.Pre_finite_inputs
import proofs.«120692_j18992345383143_2_alg».proof.Proof.KernelRun
import proofs.«120692_j18992345383143_2_alg».proof.Proof.Network
import proofs.«120692_j18992345383143_2_alg».proof.Proof.ReferenceRun
import proofs.«120692_j18992345383143_2_alg».proof.Proof.ReferenceChain
import proofs.«120692_j18992345383143_2_alg».proof.Proof.ReferenceNetwork
import Idealize.ShloMosaic.Adequacy
import Idealize.ShloMosaic.Init

set_option maxRecDepth 16384

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: no operation of its three layers writes an argument. -/
theorem frame_reference : Cert.frame_ReferenceIdeal := fun m ρ _ =>
  (θ_run Cert.ReferenceIdeal.defs _ _).mono (fun _ h c =>
    ⟨(h c _).trans (Cert.ReferenceIdeal.Chain.third_arg0 m c),
      (h c _).trans (Cert.ReferenceIdeal.Chain.third_arg1 m c),
      (h c _).trans (Cert.ReferenceIdeal.Chain.third_arg2 m c),
      (h c _).trans (Cert.ReferenceIdeal.Chain.third_arg3 m c),
      (h c _).trans (Cert.ReferenceIdeal.Chain.third_arg4 m c),
      (h c _).trans (Cert.ReferenceIdeal.Chain.third_arg5 m c),
      (h c _).trans (Cert.ReferenceIdeal.Chain.third_arg6 m c),
      (h c _).trans (Cert.ReferenceIdeal.Chain.third_arg7 m c),
      (h c _).trans (Cert.ReferenceIdeal.Chain.third_arg8 m c),
      (h c _).trans (Cert.ReferenceIdeal.Chain.third_arg9 m c),
      (h c _).trans (Cert.ReferenceIdeal.Chain.third_arg10 m c),
      (h c _).trans (Cert.ReferenceIdeal.Chain.third_arg11 m c),
      (h c _).trans (Cert.ReferenceIdeal.Chain.third_arg12 m c),
      (h c _).trans (Cert.ReferenceIdeal.Chain.third_arg13 m c),
      (h c _).trans (Cert.ReferenceIdeal.Chain.third_arg14 m c),
      (h c _).trans (Cert.ReferenceIdeal.Chain.third_arg15 m c),
      (h c _).trans (Cert.ReferenceIdeal.Chain.third_arg16 m c),
      (h c _).trans (Cert.ReferenceIdeal.Chain.third_arg17 m c),
      (h c _).trans (Cert.ReferenceIdeal.Chain.third_arg18 m c),
      (h c _).trans (Cert.ReferenceIdeal.Chain.third_arg19 m c),
      (h c _).trans (Cert.ReferenceIdeal.Chain.third_arg20 m c)⟩)
    (Cert.ReferenceIdeal.Layered.run_all (F := Ideal) m ρ)

/-- At the extended reals both programs end with the network's output of the arguments in their result buffers. -/
theorem algebraic : Cert.algebraic_KernelIdeal_ReferenceIdeal := by
  intro m ρ m' ρ' _ hagree
  refine ⟨fun c => Cert.KernelIdeal.Network.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run Cert.KernelIdeal.defs _ _).mono
      (fun r h c => ⟨(h c).1.trans (Cert.KernelIdeal.Network.kernel_value m ρ c), (h c).2⟩)
      (Cert.KernelIdeal.FinalMemory.run_result (F := Ideal) m ρ)
  · refine (θ_run Cert.ReferenceIdeal.defs _ _).mono (fun r h c =>
      ⟨?_,
      (h c _).trans (Cert.ReferenceIdeal.Chain.third_arg0 m' c),
      (h c _).trans (Cert.ReferenceIdeal.Chain.third_arg1 m' c),
      (h c _).trans (Cert.ReferenceIdeal.Chain.third_arg2 m' c),
      (h c _).trans (Cert.ReferenceIdeal.Chain.third_arg3 m' c),
      (h c _).trans (Cert.ReferenceIdeal.Chain.third_arg4 m' c),
      (h c _).trans (Cert.ReferenceIdeal.Chain.third_arg5 m' c),
      (h c _).trans (Cert.ReferenceIdeal.Chain.third_arg6 m' c),
      (h c _).trans (Cert.ReferenceIdeal.Chain.third_arg7 m' c),
      (h c _).trans (Cert.ReferenceIdeal.Chain.third_arg8 m' c),
      (h c _).trans (Cert.ReferenceIdeal.Chain.third_arg9 m' c),
      (h c _).trans (Cert.ReferenceIdeal.Chain.third_arg10 m' c),
      (h c _).trans (Cert.ReferenceIdeal.Chain.third_arg11 m' c),
      (h c _).trans (Cert.ReferenceIdeal.Chain.third_arg12 m' c),
      (h c _).trans (Cert.ReferenceIdeal.Chain.third_arg13 m' c),
      (h c _).trans (Cert.ReferenceIdeal.Chain.third_arg14 m' c),
      (h c _).trans (Cert.ReferenceIdeal.Chain.third_arg15 m' c),
      (h c _).trans (Cert.ReferenceIdeal.Chain.third_arg16 m' c),
      (h c _).trans (Cert.ReferenceIdeal.Chain.third_arg17 m' c),
      (h c _).trans (Cert.ReferenceIdeal.Chain.third_arg18 m' c),
      (h c _).trans (Cert.ReferenceIdeal.Chain.third_arg19 m' c),
      (h c _).trans (Cert.ReferenceIdeal.Chain.third_arg20 m' c)⟩)
      (Cert.ReferenceIdeal.Layered.run_all (F := Ideal) m' ρ')
    obtain ⟨e0, e1, e2, e3, e4, e5, e6, e7, e8, e9, e10, e11, e12, e13, e14, e15, e16, e17, e18, e19, e20⟩ := hagree c
    rw [h c Cert.ReferenceIdeal.main_v117, Cert.ReferenceIdeal.Chain.third_output m' c,
      Cert.ReferenceIdeal.NetworkValue.reference_value, e0, e1, e3, e4, e5, e6, e7, e8, e9, e10, e11, e12, e13, e14, e15, e16, e17, e18, e19, e20]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
